-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x10 : Shape := ⟨2, ![1000000, 10]⟩
abbrev S4x1000000x20 : Shape := ⟨3, ![4, 1000000, 20]⟩
abbrev S60x10 : Shape := ⟨2, ![60, 10]⟩
abbrev S60 : Shape := ⟨1, ![60]⟩
abbrev S60x20 : Shape := ⟨2, ![60, 20]⟩
abbrev S20x10 : Shape := ⟨2, ![20, 10]⟩
abbrev S20 : Shape := ⟨1, ![20]⟩
abbrev S20x20 : Shape := ⟨2, ![20, 20]⟩
abbrev S_ : Shape := ⟨0, ![]⟩

class Facts : Prop where
  bcast_S_S1000000x10 : S_.BroadcastsInDim S1000000x10 (![] : Fin 0 → Fin S1000000x10.rank)
  reducesTo_S1000000x10_S_d0_1 : S1000000x10.ReducesTo [0, 1] S_
  h_S_ : 0 < S_.numel
  bcast_S_S4x1000000x20 : S_.BroadcastsInDim S4x1000000x20 (![] : Fin 0 → Fin S4x1000000x20.rank)
  reducesTo_S4x1000000x20_S_d0_1_2 : S4x1000000x20.ReducesTo [0, 1, 2] S_
  bcast_S_S60x10 : S_.BroadcastsInDim S60x10 (![] : Fin 0 → Fin S60x10.rank)
  reducesTo_S60x10_S_d0_1 : S60x10.ReducesTo [0, 1] S_
  bcast_S_S60 : S_.BroadcastsInDim S60 (![] : Fin 0 → Fin S60.rank)
  reducesTo_S60_S_d0 : S60.ReducesTo [0] S_
  bcast_S_S60x20 : S_.BroadcastsInDim S60x20 (![] : Fin 0 → Fin S60x20.rank)
  reducesTo_S60x20_S_d0_1 : S60x20.ReducesTo [0, 1] S_
  bcast_S_S20x10 : S_.BroadcastsInDim S20x10 (![] : Fin 0 → Fin S20x10.rank)
  reducesTo_S20x10_S_d0_1 : S20x10.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_

variable [Facts]

def fn_part3 {F : FTy → Type} [FloatOps F] (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  main_v53

def fn_part2 {F : FTy → Type} [FloatOps F] (main_arg7 : FVec F S20x10 .f32) (main_arg8 : FVec F S20 .f32) (main_arg9 : FVec F S20x20 .f32) (main_arg10 : FVec F S20 .f32) (main_v33 : IVec S_ 1) : IVec S_ 1 :=
  let main_v34 : FVec F S20x10 .f32 := Host.absf main_arg7
  let main_cst_12 : FVec F S_ .f32 := constant S_ .f32 0x7F800000#32
  let main_v35 : FVec F S20x10 .f32 := broadcastInDim S20x10 ![] bcast_S_S20x10 main_cst_12
  let main_v36 : IVec S20x10 1 := cmpf .olt main_v34 main_v35
  let main_c_13 : IVec S_ 1 := constantI S_ 1 1#1
  let main_v37 : IVec S_ 1 := (fun x v => Host.reduce IntOp.andi x v reducesTo_S20x10_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x20 .f32 := Host.absf main_arg9
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_v48 main_v49 main_v50

def fn_part1 {F : FTy → Type} [FloatOps F] (main_arg4 : FVec F S60 .f32) (main_arg5 : FVec F S60x20 .f32) (main_arg6 : FVec F S60 .f32) (main_arg7 : FVec F S20x10 .f32) (main_arg8 : FVec F S20 .f32) (main_arg9 : FVec F S20x20 .f32) (main_arg10 : FVec F S20 .f32) (main_v13 : IVec S_ 1) (main_v16 : IVec S60x10 1) : IVec S_ 1 :=
  let main_c_5 : IVec S_ 1 := constantI S_ 1 1#1
  let main_v17 : IVec S_ 1 := (fun x v => Host.reduce IntOp.andi x v reducesTo_S60x10_S_d0_1 h_S_) main_v16 main_c_5
  let main_v18 : IVec S_ 1 := andi main_v13 main_v17
  let main_v19 : FVec F S60 .f32 := Host.absf main_arg4
  let main_cst_6 : FVec F S_ .f32 := constant S_ .f32 0x7F800000#32
  let main_v20 : FVec F S60 .f32 := broadcastInDim S60 ![] bcast_S_S60 main_cst_6
  let main_v21 : IVec S60 1 := cmpf .olt main_v19 main_v20
  let main_c_7 : IVec S_ 1 := constantI S_ 1 1#1
  let main_v22 : IVec S_ 1 := (fun x v => Host.reduce IntOp.andi x v reducesTo_S60_S_d0 h_S_) main_v21 main_c_7
  let main_v23 : IVec S_ 1 := andi main_v18 main_v22
  let main_v24 : FVec F S60x20 .f32 := Host.absf main_arg5
  let main_cst_8 : FVec F S_ .f32 := constant S_ .f32 0x7F800000#32
  let main_v25 : FVec F S60x20 .f32 := broadcastInDim S60x20 ![] bcast_S_S60x20 main_cst_8
  let main_v26 : IVec S60x20 1 := cmpf .olt main_v24 main_v25
  let main_c_9 : IVec S_ 1 := constantI S_ 1 1#1
  let main_v27 : IVec S_ 1 := (fun x v => Host.reduce IntOp.andi x v reducesTo_S60x20_S_d0_1 h_S_) main_v26 main_c_9
  let main_v28 : IVec S_ 1 := andi main_v23 main_v27
  let main_v29 : FVec F S60 .f32 := Host.absf main_arg6
  let main_cst_10 : FVec F S_ .f32 := constant S_ .f32 0x7F800000#32
  let main_v30 : FVec F S60 .f32 := broadcastInDim S60 ![] bcast_S_S60 main_cst_10
  let main_v31 : IVec S60 1 := cmpf .olt main_v29 main_v30
  let main_c_11 : IVec S_ 1 := constantI S_ 1 1#1
  let main_v32 : IVec S_ 1 := (fun x v => Host.reduce IntOp.andi x v reducesTo_S60_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x10 .f32) (main_arg1 : FVec F S4x1000000x20 .f32) (main_arg2 : FVec F S4x1000000x20 .f32) (main_arg3 : FVec F S60x10 .f32) (main_arg4 : FVec F S60 .f32) (main_arg5 : FVec F S60x20 .f32) (main_arg6 : FVec F S60 .f32) (main_arg7 : FVec F S20x10 .f32) (main_arg8 : FVec F S20 .f32) (main_arg9 : FVec F S20x20 .f32) (main_arg10 : FVec F S20 .f32) : IVec S_ 1 :=
  let main_v0 : FVec F S1000000x10 .f32 := Host.absf main_arg0
  let main_cst : FVec F S_ .f32 := constant S_ .f32 0x7F800000#32
  let main_v1 : FVec F S1000000x10 .f32 := broadcastInDim S1000000x10 ![] bcast_S_S1000000x10 main_cst
  let main_v2 : IVec S1000000x10 1 := cmpf .olt main_v0 main_v1
  let main_c : IVec S_ 1 := constantI S_ 1 1#1
  let main_v3 : IVec S_ 1 := (fun x v => Host.reduce IntOp.andi x v reducesTo_S1000000x10_S_d0_1 h_S_) main_v2 main_c
  let main_v4 : FVec F S4x1000000x20 .f32 := Host.absf main_arg1
  let main_cst_0 : FVec F S_ .f32 := constant S_ .f32 0x7F800000#32
  let main_v5 : FVec F S4x1000000x20 .f32 := broadcastInDim S4x1000000x20 ![] bcast_S_S4x1000000x20 main_cst_0
  let main_v6 : IVec S4x1000000x20 1 := cmpf .olt main_v4 main_v5
  let main_c_1 : IVec S_ 1 := constantI S_ 1 1#1
  let main_v7 : IVec S_ 1 := (fun x v => Host.reduce IntOp.andi x v reducesTo_S4x1000000x20_S_d0_1_2 h_S_) main_v6 main_c_1
  let main_v8 : IVec S_ 1 := andi main_v3 main_v7
  let main_v9 : FVec F S4x1000000x20 .f32 := Host.absf main_arg2
  let main_cst_2 : FVec F S_ .f32 := constant S_ .f32 0x7F800000#32
  let main_v10 : FVec F S4x1000000x20 .f32 := broadcastInDim S4x1000000x20 ![] bcast_S_S4x1000000x20 main_cst_2
  let main_v11 : IVec S4x1000000x20 1 := cmpf .olt main_v9 main_v10
  let main_c_3 : IVec S_ 1 := constantI S_ 1 1#1
  let main_v12 : IVec S_ 1 := (fun x v => Host.reduce IntOp.andi x v reducesTo_S4x1000000x20_S_d0_1_2 h_S_) main_v11 main_c_3
  let main_v13 : IVec S_ 1 := andi main_v8 main_v12
  let main_v14 : FVec F S60x10 .f32 := Host.absf main_arg3
  let main_cst_4 : FVec F S_ .f32 := constant S_ .f32 0x7F800000#32
  let main_v15 : FVec F S60x10 .f32 := broadcastInDim S60x10 ![] bcast_S_S60x10 main_cst_4
  let main_v16 : IVec S60x10 1 := cmpf .olt main_v14 main_v15
  fn_part1 (F := F) main_arg4 main_arg5 main_arg6 main_arg7 main_arg8 main_arg9 main_arg10 main_v13 main_v16
-- ==== Kernel.lean ====
abbrev S1000000x10 : Shape := ⟨2, ![1000000, 10]⟩
abbrev S4x1000000x20 : Shape := ⟨3, ![4, 1000000, 20]⟩
abbrev S60x10 : Shape := ⟨2, ![60, 10]⟩
abbrev S60 : Shape := ⟨1, ![60]⟩
abbrev S60x20 : Shape := ⟨2, ![60, 20]⟩
abbrev S20x10 : Shape := ⟨2, ![20, 10]⟩
abbrev S20 : Shape := ⟨1, ![20]⟩
abbrev S20x20 : Shape := ⟨2, ![20, 20]⟩
abbrev S1x20 : Shape := ⟨2, ![1, 20]⟩
abbrev S1x60 : Shape := ⟨2, ![1, 60]⟩
abbrev S1000000x20 : Shape := ⟨2, ![1000000, 20]⟩
abbrev S2000x10 : Shape := ⟨2, ![2000, 10]⟩
abbrev S4x2000x20 : Shape := ⟨3, ![4, 2000, 20]⟩
abbrev S2000x20 : Shape := ⟨2, ![2000, 20]⟩
abbrev S10x20 : Shape := ⟨2, ![10, 20]⟩
abbrev S1x2000x20 : Shape := ⟨3, ![1, 2000, 20]⟩
abbrev S10x60 : Shape := ⟨2, ![10, 60]⟩
abbrev S2000x60 : Shape := ⟨2, ![2000, 60]⟩
abbrev S20x60 : Shape := ⟨2, ![20, 60]⟩

abbrev nBuf : Space → Nat
  | .hbm => 17
  | .vmem => 18
  | .smem => 0
  | _ => 0

abbrev bufTy : (tb : Table) → Fin (tcTables nBuf tb) → BufTy
  | .hbm, ⟨0, _⟩ => ⟨S1000000x10, .f32⟩
  | .hbm, ⟨1, _⟩ => ⟨S4x1000000x20, .f32⟩
  | .hbm, ⟨2, _⟩ => ⟨S4x1000000x20, .f32⟩
  | .hbm, ⟨3, _⟩ => ⟨S60x10, .f32⟩
  | .hbm, ⟨4, _⟩ => ⟨S60, .f32⟩
  | .hbm, ⟨5, _⟩ => ⟨S60x20, .f32⟩
  | .hbm, ⟨6, _⟩ => ⟨S60, .f32⟩
  | .hbm, ⟨7, _⟩ => ⟨S20x10, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S1x20, .f32⟩
  | .hbm, ⟨12, _⟩ => ⟨S1x20, .f32⟩
  | .hbm, ⟨13, _⟩ => ⟨S1x60, .f32⟩
  | .hbm, ⟨14, _⟩ => ⟨S1x60, .f32⟩
  | .hbm, ⟨15, _⟩ => ⟨S1000000x20, .f32⟩
  | .hbm, ⟨16, _⟩ => ⟨S1000000x20, .f32⟩
  | .local _ .vmem, ⟨0, _⟩ => ⟨S2000x10, .f32⟩
  | .local _ .vmem, ⟨1, _⟩ => ⟨S2000x10, .f32⟩
  | .local _ .vmem, ⟨2, _⟩ => ⟨S4x2000x20, .f32⟩
  | .local _ .vmem, ⟨3, _⟩ => ⟨S4x2000x20, .f32⟩
  | .local _ .vmem, ⟨4, _⟩ => ⟨S4x2000x20, .f32⟩
  | .local _ .vmem, ⟨5, _⟩ => ⟨S4x2000x20, .f32⟩
  | .local _ .vmem, ⟨6, _⟩ => ⟨S20x10, .f32⟩
  | .local _ .vmem, ⟨7, _⟩ => ⟨S1x20, .f32⟩
  | .local _ .vmem, ⟨8, _⟩ => ⟨S20x20, .f32⟩
  | .local _ .vmem, ⟨9, _⟩ => ⟨S1x20, .f32⟩
  | .local _ .vmem, ⟨10, _⟩ => ⟨S60x10, .f32⟩
  | .local _ .vmem, ⟨11, _⟩ => ⟨S1x60, .f32⟩
  | .local _ .vmem, ⟨12, _⟩ => ⟨S60x20, .f32⟩
  | .local _ .vmem, ⟨13, _⟩ => ⟨S1x60, .f32⟩
  | .local _ .vmem, ⟨14, _⟩ => ⟨S2000x20, .f32⟩
  | .local _ .vmem, ⟨15, _⟩ => ⟨S2000x20, .f32⟩
  | .local _ .vmem, ⟨16, _⟩ => ⟨S2000x20, .f32⟩
  | .local _ .vmem, ⟨17, _⟩ => ⟨S2000x20, .f32⟩
  | _, _ => ⟨S1000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S60x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x60 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x20 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x20 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S20_S1x20 : S20.ShapeCasts S1x20
  shapeCasts_S60_S1x60 : S60.ShapeCasts S1x60
  inb_S2000x10_S2000x10_0_0 : ∀ a, (![0, 0] : Fin 2 → Nat) a + S2000x10.size a ≤ S2000x10.size a
  h_S2000x10 : 0 < S2000x10.numel
  inb_S4x2000x20_S4x2000x20_0_0_0 : ∀ a, (![0, 0, 0] : Fin 3 → Nat) a + S4x2000x20.size a ≤ S4x2000x20.size a
  h_S4x2000x20 : 0 < S4x2000x20.numel
  bitsLt_bf16_f32 : FTy.bits .bf16 < FTy.bits .f32
  inb_S20x10_S20x10_0_0 : ∀ a, (![0, 0] : Fin 2 → Nat) a + S20x10.size a ≤ S20x10.size a
  h_S20x10 : 0 < S20x10.numel
  inb_S20x20_S20x20_0_0 : ∀ a, (![0, 0] : Fin 2 → Nat) a + S20x20.size a ≤ S20x20.size a
  h_S20x20 : 0 < S20x20.numel
  inb_S60x10_S60x10_0_0 : ∀ a, (![0, 0] : Fin 2 → Nat) a + S60x10.size a ≤ S60x10.size a
  h_S60x10 : 0 < S60x10.numel
  inb_S60x20_S60x20_0_0 : ∀ a, (![0, 0] : Fin 2 → Nat) a + S60x20.size a ≤ S60x20.size a
  h_S60x20 : 0 < S60x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S1x60_S1x60_0_0 : ∀ a, (![0, 0] : Fin 2 → Nat) a + S1x60.size a ≤ S1x60.size a
  h_S1x60 : 0 < S1x60.numel
  shapeCasts_S1x60_S1x60 : S1x60.ShapeCasts S1x60
  transposes_S20x10_p1_0_S10x20 : S20x10.Transposes [1, 0] S10x20
  broadcasts_S1x20_S2000x20 : S1x20.Broadcasts S2000x20
  slices_S4x2000x20_o0_0_0_S1x2000x20 : S4x2000x20.Slices ![0, 0, 0] S1x2000x20
  shapeCasts_S1x2000x20_S2000x20 : S1x2000x20.ShapeCasts S2000x20
  transposes_S20x20_p1_0_S20x20 : S20x20.Transposes [1, 0] S20x20
  slices_S4x2000x20_o1_0_0_S1x2000x20 : S4x2000x20.Slices ![1, 0, 0] S1x2000x20
  slices_S4x2000x20_o2_0_0_S1x2000x20 : S4x2000x20.Slices ![2, 0, 0] S1x2000x20
  slices_S4x2000x20_o3_0_0_S1x2000x20 : S4x2000x20.Slices ![3, 0, 0] S1x2000x20
  transposes_S60x10_p1_0_S10x60 : S60x10.Transposes [1, 0] S10x60
  broadcasts_S1x60_S2000x60 : S1x60.Broadcasts S2000x60
  transposes_S60x20_p1_0_S20x60 : S60x20.Transposes [1, 0] S20x60
  slices_S2000x60_o0_0_S2000x20 : S2000x60.Slices ![0, 0] S2000x20
  slices_S2000x60_o0_20_S2000x20 : S2000x60.Slices ![0, 20] S2000x20
  slices_S2000x60_o0_40_S2000x20 : S2000x60.Slices ![0, 40] S2000x20
  inb_S2000x20_S2000x20_0_0 : ∀ a, (![0, 0] : Fin 2 → Nat) a + S2000x20.size a ≤ S2000x20.size a
  h_S2000x20 : 0 < S2000x20.numel
  dot_S2000x10_S10x20_S2000x20_1_0_0_1_n_n_wf : DotDims.WF S2000x10 S10x20 S2000x20 [1] [0] [0] [1] [] []
  dot_S2000x20_S20x20_S2000x20_1_0_0_1_n_n_wf : DotDims.WF S2000x20 S20x20 S2000x20 [1] [0] [0] [1] [] []
  dot_S2000x10_S10x60_S2000x60_1_0_0_1_n_n_wf : DotDims.WF S2000x10 S10x60 S2000x60 [1] [0] [0] [1] [] []
  dot_S2000x20_S20x60_S2000x60_1_0_0_1_n_n_wf : DotDims.WF S2000x20 S20x60 S2000x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x10.size a ≤ S1000000x10.size a
  hwx0_0 : ∀ i : grid0.Coords, EltTy.bits .f32 = 32 ∨ (Rect.block (s := S1000000x10) S2000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x20.size a ≤ S4x1000000x20.size a
  hwx0_1 : ∀ i : grid0.Coords, EltTy.bits .f32 = 32 ∨ (Rect.block (s := S4x1000000x20) S4x2000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2000x20.size a ≤ S4x1000000x20.size a
  hwx0_2 : ∀ i : grid0.Coords, EltTy.bits .f32 = 32 ∨ (Rect.block (s := S4x1000000x20) S4x2000x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x10.size a ≤ S20x10.size a
  hwx0_3 : ∀ i : grid0.Coords, EltTy.bits .f32 = 32 ∨ (Rect.block (s := S20x10) S20x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x20.size a ≤ S20x20.size a
  hwx0_5 : ∀ i : grid0.Coords, EltTy.bits .f32 = 32 ∨ (Rect.block (s := S20x20) S20x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S60x10.size a ≤ S60x10.size a
  hwx0_7 : ∀ i : grid0.Coords, EltTy.bits .f32 = 32 ∨ (Rect.block (s := S60x10) S60x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x60.size a ≤ S1x60.size a
  hwx0_8 : ∀ i : grid0.Coords, EltTy.bits .f32 = 32 ∨ (Rect.block (s := S1x60) S1x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60x20.size a ≤ S60x20.size a
  hwx0_9 : ∀ i : grid0.Coords, EltTy.bits .f32 = 32 ∨ (Rect.block (s := S60x20) S60x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x60.size a ≤ S1x60.size a
  hwx0_10 : ∀ i : grid0.Coords, EltTy.bits .f32 = 32 ∨ (Rect.block (s := S1x60) S1x60.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x20.size a ≤ S1000000x20.size a
  hwx0_11 : ∀ i : grid0.Coords, EltTy.bits .f32 = 32 ∨ (Rect.block (s := S1000000x20) S2000x20.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x20.size a ≤ S1000000x20.size a
  hwx0_12 : ∀ i : grid0.Coords, EltTy.bits .f32 = 32 ∨ (Rect.block (s := S1000000x20) S2000x20.size (cc0_transform_12 i) (hinb0_12 i)).WholeWords (EltTy.packing .f32)

variable [Facts₀]

def dot_S2000x10_S10x20_S2000x20_1_0_0_1_n_n : DotDims S2000x10 S10x20 S2000x20 where
  lhsContracting := [1]
  rhsContracting := [0]
  lhsNonContracting := [0]
  rhsNonContracting := [1]
  lhsBatch := []
  rhsBatch := []
  wf := dot_S2000x10_S10x20_S2000x20_1_0_0_1_n_n_wf
def dot_S2000x20_S20x20_S2000x20_1_0_0_1_n_n : DotDims S2000x20 S20x20 S2000x20 where
  lhsContracting := [1]
  rhsContracting := [0]
  lhsNonContracting := [0]
  rhsNonContracting := [1]
  lhsBatch := []
  rhsBatch := []
  wf := dot_S2000x20_S20x20_S2000x20_1_0_0_1_n_n_wf
def dot_S2000x10_S10x60_S2000x60_1_0_0_1_n_n : DotDims S2000x10 S10x60 S2000x60 where
  lhsContracting := [1]
  rhsContracting := [0]
  lhsNonContracting := [0]
  rhsNonContracting := [1]
  lhsBatch := []
  rhsBatch := []
  wf := dot_S2000x10_S10x60_S2000x60_1_0_0_1_n_n_wf
def dot_S2000x20_S20x60_S2000x60_1_0_0_1_n_n : DotDims S2000x20 S20x60 S2000x60 where
  lhsContracting := [1]
  rhsContracting := [0]
  lhsNonContracting := [0]
  rhsNonContracting := [1]
  lhsBatch := []
  rhsBatch := []
  wf := dot_S2000x20_S20x60_S2000x60_1_0_0_1_n_n_wf

abbrev win0_0 : Pipeline.Window sig grid0 :=
  Pipeline.Window.ofSpec (Memref.whole main_arg0) S2000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2000x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S20x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S20x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S60x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S60x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x60.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S2000x20.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S2000x20.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1000000x10 : Shape := ⟨2, ![1000000, 10]⟩
abbrev S4x1000000x20 : Shape := ⟨3, ![4, 1000000, 20]⟩
abbrev S60x10 : Shape := ⟨2, ![60, 10]⟩
abbrev S60 : Shape := ⟨1, ![60]⟩
abbrev S60x20 : Shape := ⟨2, ![60, 20]⟩
abbrev S20x10 : Shape := ⟨2, ![20, 10]⟩
abbrev S20 : Shape := ⟨1, ![20]⟩
abbrev S20x20 : Shape := ⟨2, ![20, 20]⟩
abbrev S1000000x20 : Shape := ⟨2, ![1000000, 20]⟩
abbrev S1x20 : Shape := ⟨2, ![1, 20]⟩
abbrev S1x1x20 : Shape := ⟨3, ![1, 1, 20]⟩
abbrev S1x1000000x20 : Shape := ⟨3, ![1, 1000000, 20]⟩
abbrev S_ : Shape := ⟨0, ![]⟩
abbrev S1000000x60 : Shape := ⟨2, ![1000000, 60]⟩
abbrev S1x60 : Shape := ⟨2, ![1, 60]⟩

abbrev nBuf : Space → Nat
  | .hbm => 71
  | .vmem => 0
  | .smem => 0
  | _ => 0

abbrev bufTy : (tb : Table) → Fin (tcTables nBuf tb) → BufTy
  | .hbm, ⟨0, _⟩ => ⟨S1000000x10, .f32⟩
  | .hbm, ⟨1, _⟩ => ⟨S4x1000000x20, .f32⟩
  | .hbm, ⟨2, _⟩ => ⟨S4x1000000x20, .f32⟩
  | .hbm, ⟨3, _⟩ => ⟨S60x10, .f32⟩
  | .hbm, ⟨4, _⟩ => ⟨S60, .f32⟩
  | .hbm, ⟨5, _⟩ => ⟨S60x20, .f32⟩
  | .hbm, ⟨6, _⟩ => ⟨S60, .f32⟩
  | .hbm, ⟨7, _⟩ => ⟨S20x10, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S1000000x20, .f32⟩
  | .hbm, ⟨12, _⟩ => ⟨S1x20, .f32⟩
  | .hbm, ⟨13, _⟩ => ⟨S1000000x20, .f32⟩
  | .hbm, ⟨14, _⟩ => ⟨S1000000x20, .f32⟩
  | .hbm, ⟨15, _⟩ => ⟨S4x1000000x20, .f32⟩
  | .hbm, ⟨16, _⟩ => ⟨S1x1x20, .f32⟩
  | .hbm, ⟨17, _⟩ => ⟨S4x1000000x20, .f32⟩
  | .hbm, ⟨18, _⟩ => ⟨S4x1000000x20, .f32⟩
  | .hbm, ⟨19, _⟩ => ⟨S1x1000000x20, .f32⟩
  | .hbm, ⟨20, _⟩ => ⟨S4x1000000x20, .f32⟩
  | .hbm, ⟨21, _⟩ => ⟨S4x1000000x20, .f32⟩
  | .hbm, ⟨22, _⟩ => ⟨S4x1000000x20, .f32⟩
  | .hbm, ⟨23, _⟩ => ⟨S4x1000000x20, .f32⟩
  | .hbm, ⟨24, _⟩ => ⟨S_, .f32⟩
  | .hbm, ⟨25, _⟩ => ⟨S4x1000000x20, .f32⟩
  | .hbm, ⟨26, _⟩ => ⟨S4x1000000x20, .f32⟩
  | .hbm, ⟨27, _⟩ => ⟨S_, .f32⟩
  | .hbm, ⟨28, _⟩ => ⟨S4x1000000x20, .f32⟩
  | .hbm, ⟨29, _⟩ => ⟨S4x1000000x20, .f32⟩
  | .hbm, ⟨30, _⟩ => ⟨S4x1000000x20, .f32⟩
  | .hbm, ⟨31, _⟩ => ⟨S_, .f32⟩
  | .hbm, ⟨32, _⟩ => ⟨S1000000x20, .f32⟩
  | .hbm, ⟨33, _⟩ => ⟨S_, .f32⟩
  | .hbm, ⟨34, _⟩ => ⟨S1000000x20, .f32⟩
  | .hbm, ⟨35, _⟩ => ⟨S1000000x60, .f32⟩
  | .hbm, ⟨36, _⟩ => ⟨S1x60, .f32⟩
  | .hbm, ⟨37, _⟩ => ⟨S1000000x60, .f32⟩
  | .hbm, ⟨38, _⟩ => ⟨S1000000x60, .f32⟩
  | .hbm, ⟨39, _⟩ => ⟨S1000000x60, .f32⟩
  | .hbm, ⟨40, _⟩ => ⟨S1000000x60, .f32⟩
  | .hbm, ⟨41, _⟩ => ⟨S_, .f32⟩
  | .hbm, ⟨42, _⟩ => ⟨S60, .f32⟩
  | .hbm, ⟨43, _⟩ => ⟨S60, .f32⟩
  | .hbm, ⟨44, _⟩ => ⟨S1x60, .f32⟩
  | .hbm, ⟨45, _⟩ => ⟨S1000000x60, .f32⟩
  | .hbm, ⟨46, _⟩ => ⟨S1000000x60, .f32⟩
  | .hbm, ⟨47, _⟩ => ⟨S1000000x20, .f32⟩
  | .hbm, ⟨48, _⟩ => ⟨S1000000x20, .f32⟩
  | .hbm, ⟨49, _⟩ => ⟨S1000000x20, .f32⟩
  | .hbm, ⟨50, _⟩ => ⟨S1000000x20, .f32⟩
  | .hbm, ⟨51, _⟩ => ⟨S1000000x20, .f32⟩
  | .hbm, ⟨52, _⟩ => ⟨S_, .f32⟩
  | .hbm, ⟨53, _⟩ => ⟨S1000000x20, .f32⟩
  | .hbm, ⟨54, _⟩ => ⟨S1000000x20, .f32⟩
  | .hbm, ⟨55, _⟩ => ⟨S_, .f32⟩
  | .hbm, ⟨56, _⟩ => ⟨S1000000x20, .f32⟩
  | .hbm, ⟨57, _⟩ => ⟨S1000000x20, .f32⟩
  | .hbm, ⟨58, _⟩ => ⟨S1000000x20, .f32⟩
  | .hbm, ⟨59, _⟩ => ⟨S1000000x20, .f32⟩
  | .hbm, ⟨60, _⟩ => ⟨S1000000x20, .f32⟩
  | .hbm, ⟨61, _⟩ => ⟨S1000000x20, .f32⟩
  | .hbm, ⟨62, _⟩ => ⟨S1000000x20, .f32⟩
  | .hbm, ⟨63, _⟩ => ⟨S_, .f32⟩
  | .hbm, ⟨64, _⟩ => ⟨S1000000x20, .f32⟩
  | .hbm, ⟨65, _⟩ => ⟨S1000000x20, .f32⟩
  | .hbm, ⟨66, _⟩ => ⟨S_, .f32⟩
  | .hbm, ⟨67, _⟩ => ⟨S1000000x20, .f32⟩
  | .hbm, ⟨68, _⟩ => ⟨S1000000x20, .f32⟩
  | .hbm, ⟨69, _⟩ => ⟨S1000000x20, .f32⟩
  | .hbm, ⟨70, _⟩ => ⟨S1000000x20, .f32⟩
  | _, _ => ⟨S1000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S1000000x20_0_1 : S1x20.BroadcastsInDim S1000000x20 (![0, 1] : Fin 2 → Fin S1000000x20.rank)
  bcast_S20_S1x1x20_2 : S20.BroadcastsInDim S1x1x20 (![2] : Fin 1 → Fin S1x1x20.rank)
  bcast_S1x1x20_S4x1000000x20_0_1_2 : S1x1x20.BroadcastsInDim S4x1000000x20 (![0, 1, 2] : Fin 3 → Fin S4x1000000x20.rank)
  bcast_S1000000x20_S1x1000000x20_1_2 : S1000000x20.BroadcastsInDim S1x1000000x20 (![1, 2] : Fin 2 → Fin S1x1000000x20.rank)
  bcast_S1x1000000x20_S4x1000000x20_0_1_2 : S1x1000000x20.BroadcastsInDim S4x1000000x20 (![0, 1, 2] : Fin 3 → Fin S4x1000000x20.rank)
  bcast_S_S4x1000000x20 : S_.BroadcastsInDim S4x1000000x20 (![] : Fin 0 → Fin S4x1000000x20.rank)
  reducesTo_S4x1000000x20_S1000000x20_d0 : S4x1000000x20.ReducesTo [0] S1000000x20
  h_S_ : 0 < S_.numel
  bcast_S60_S1x60_1 : S60.BroadcastsInDim S1x60 (![1] : Fin 1 → Fin S1x60.rank)
  bcast_S1x60_S1000000x60_0_1 : S1x60.BroadcastsInDim S1000000x60 (![0, 1] : Fin 2 → Fin S1000000x60.rank)
  bcast_S_S60 : S_.BroadcastsInDim S60 (![] : Fin 0 → Fin S60.rank)
  slices_S1000000x60_S1000000x20_0_0 : S1000000x60.Slices ![0, 0] S1000000x20
  slices_S1000000x60_S1000000x20_0_20 : S1000000x60.Slices ![0, 20] S1000000x20
  slices_S1000000x60_S1000000x20_0_40 : S1000000x60.Slices ![0, 40] S1000000x20
  bcast_S_S1000000x20 : S_.BroadcastsInDim S1000000x20 (![] : Fin 0 → Fin S1000000x20.rank)
  dot_S1000000x10_S20x10_S1000000x20_1_1_0_0_n_n_wf : DotDims.WF S1000000x10 S20x10 S1000000x20 [1] [1] [0] [0] [] []
  dot_S4x1000000x20_S20x20_S4x1000000x20_2_1_01_0_n_n_wf : DotDims.WF S4x1000000x20 S20x20 S4x1000000x20 [2] [1] [0, 1] [0] [] []
  dot_S1000000x10_S60x10_S1000000x60_1_1_0_0_n_n_wf : DotDims.WF S1000000x10 S60x10 S1000000x60 [1] [1] [0] [0] [] []
  dot_S1000000x20_S60x20_S1000000x60_1_1_0_0_n_n_wf : DotDims.WF S1000000x20 S60x20 S1000000x60 [1] [1] [0] [0] [] []

variable [Facts₀]

def dot_S1000000x10_S20x10_S1000000x20_1_1_0_0_n_n : DotDims S1000000x10 S20x10 S1000000x20 where
  lhsContracting := [1]
  rhsContracting := [1]
  lhsNonContracting := [0]
  rhsNonContracting := [0]
  lhsBatch := []
  rhsBatch := []
  wf := dot_S1000000x10_S20x10_S1000000x20_1_1_0_0_n_n_wf
def dot_S4x1000000x20_S20x20_S4x1000000x20_2_1_01_0_n_n : DotDims S4x1000000x20 S20x20 S4x1000000x20 where
  lhsContracting := [2]
  rhsContracting := [1]
  lhsNonContracting := [0, 1]
  rhsNonContracting := [0]
  lhsBatch := []
  rhsBatch := []
  wf := dot_S4x1000000x20_S20x20_S4x1000000x20_2_1_01_0_n_n_wf
def dot_S1000000x10_S60x10_S1000000x60_1_1_0_0_n_n : DotDims S1000000x10 S60x10 S1000000x60 where
  lhsContracting := [1]
  rhsContracting := [1]
  lhsNonContracting := [0]
  rhsNonContracting := [0]
  lhsBatch := []
  rhsBatch := []
  wf := dot_S1000000x10_S60x10_S1000000x60_1_1_0_0_n_n_wf
def dot_S1000000x20_S60x20_S1000000x60_1_1_0_0_n_n : DotDims S1000000x20 S60x20 S1000000x60 where
  lhsContracting := [1]
  rhsContracting := [1]
  lhsNonContracting := [0]
  rhsNonContracting := [0]
  lhsBatch := []
  rhsBatch := []
  wf := dot_S1000000x20_S60x20_S1000000x60_1_1_0_0_n_n_wf

class Facts : Prop extends Facts₀ where

variable [Facts]
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«101661_j42485816492070_2_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibSigmoid.lean ====
/-
  The logistic function on the extended reals in its two spellings, and three small facts that travel with it.

  A kernel's logistic operation is, on the extended reals, 1 / (1 + e⁻ˣ) with the conventions 0 at -∞ and 1 at +∞. A host
  program that spells the sigmoid as a negation, an exponential, a sum with the word of 1.0 and a quotient of that word
  by the sum denotes the same function: the word 0x3F800000 is the number one. Beside it: the logistic function and the
  hyperbolic tangent of a vector read at an entry, and the fact that four terms added to a start value one after the
  other are the start value plus their sum (an accumulator over four unrolled steps against a reduction), in any
  commutative additive monoid.
-/
import Idealize.ShloMosaic.PureOps.Ideal
import Idealize.ShloMosaic.Lib.ValueIdx
import Mathlib.Algebra.BigOperators.Fin

noncomputable section

open scoped BigOperators

namespace Cert.LibSigmoid

open Idealize.ShloMosaic

/-- The word of 1.0 denotes the number one. -/
theorem oneW : Ideal.ofBits .f32 0x3F800000#32 = 1 := by
  simp [Ideal.ofBits, Ideal.ieee, -EReal.coe_mul]; norm_num

/-- The sigmoid spelt with the word of 1.0, a negation, an exponential, a sum and a quotient is the logistic function,
    at every extended real. -/
theorem logistic_spelt (x : EReal) :
    Ideal.div (Ideal.ofBits .f32 0x3F800000#32) (Ideal.ofBits .f32 0x3F800000#32 + Ideal.exp (-x)) = Ideal.logistic x := by
  rw [oneW]; rfl

/-- The logistic function of a vector, at an entry. -/
theorem logistic_at {s : Shape} {φ : FTy} (v : FVec Ideal s φ) (i : s.Idx) : logistic v i = Ideal.logistic (v i) := rfl

/-- The hyperbolic tangent of a vector, at an entry. -/
theorem tanh_at {s : Shape} {φ : FTy} (v : FVec Ideal s φ) (i : s.Idx) : tanh v i = Ideal.tanh (v i) := rfl

/-- Four terms added to a start value one after the other are the start value plus their sum. -/
theorem chain4 {M : Type*} [AddCommMonoid M] (z : M) (t : Fin 4 → M) :
    (((z + t 0) + t 1) + t 2) + t 3 = z + ∑ k : Fin 4, t k := by
  rw [Fin.sum_univ_four]
  simp only [add_assoc]

end Cert.LibSigmoid

end
-- ==== Proof.Cell.lean ====
/-
  The child-sum tree cell on ONE node, as functions of that node's data, on the extended reals.

  A node has an input row `xr` (10 entries) and four children, child `k` with a hidden row `hr k` and a memory row
  `cr k` (20 entries each). With weight matrices stored one row per output unit and bias vectors:

    forget gate of child k, unit g :  σ( (Σₐ xr a · Wf g a + bf g) + (Σⱼ hr k j · Uf g j + buf g) )
    summed hidden row, entry j     :  0 + Σₖ hr k j
    gate pre-activations, unit o   :  ((Σₐ xr a · Wi o a + bi o) + Σⱼ hsum j · Ui o j) + 4 · bui o      (60 units)
    new memory, unit g             :  σ(iou g) · tanh(iou (g+40)) + (0 + Σₖ fgate k g · cr k g)
    new hidden, unit g             :  σ(iou (g+20)) · tanh(new memory g)

  σ is the logistic function 1 / (1 + e⁻ˣ) and the two constants are the words of 0.0 and 4.0, kept as words: both
  programs spell the same words, so they are never evaluated.
-/
import proofs.«101661_j42485816492070_2_alg».proof.Proof.LibSigmoid

noncomputable section

open scoped BigOperators

namespace Cert.TreeCell

open Idealize.ShloMosaic

/-- The word of 0.0, as the extended real it denotes. -/
def zeroW : EReal := Ideal.ofBits .f32 0x00000000#32
/-- The word of 4.0 (the number of children), as the extended real it denotes. -/
def fourW : EReal := Ideal.ofBits .f32 0x40800000#32

/-- Gate unit `g` of the first third (the input gate), as one of the 60 units. -/
def u0 (g : Fin 20) : Fin 60 := ⟨g.val, by have := g.isLt; omega⟩
/-- Gate unit `g` of the second third (the output gate). -/
def u20 (g : Fin 20) : Fin 60 := ⟨g.val + 20, by have := g.isLt; omega⟩
/-- Gate unit `g` of the last third (the candidate). -/
def u40 (g : Fin 20) : Fin 60 := ⟨g.val + 40, by have := g.isLt; omega⟩

section
variable (xr : Fin 10 → EReal) (hr cr : Fin 4 → Fin 20 → EReal)
  (Wf : Fin 20 → Fin 10 → EReal) (bf : Fin 20 → EReal) (Uf : Fin 20 → Fin 20 → EReal) (buf : Fin 20 → EReal)
  (Wi : Fin 60 → Fin 10 → EReal) (bi : Fin 60 → EReal) (Ui : Fin 60 → Fin 20 → EReal) (bui : Fin 60 → EReal)

/-- The input's share of every forget gate, unit `g`. -/
def fx (g : Fin 20) : EReal := (∑ a : Fin 10, xr a * Wf g a) + bf g
/-- Child `k`'s share of its forget gate, unit `g`. -/
def fh (k : Fin 4) (g : Fin 20) : EReal := (∑ j : Fin 20, hr k j * Uf g j) + buf g
/-- Child `k`'s forget gate, unit `g`. -/
def fgate (k : Fin 4) (g : Fin 20) : EReal := Ideal.logistic (fx xr Wf bf g + fh hr Uf buf k g)
/-- The children's memories through their forget gates, summed. -/
def cacc (g : Fin 20) : EReal := zeroW + ∑ k : Fin 4, fgate xr hr Wf bf Uf buf k g * cr k g
/-- The children's hidden rows, summed. -/
def hsum (j : Fin 20) : EReal := zeroW + ∑ k : Fin 4, hr k j
/-- The three gates' pre-activations, 60 units. -/
def iou (o : Fin 60) : EReal :=
  (((∑ a : Fin 10, xr a * Wi o a) + bi o) + ∑ j : Fin 20, hsum hr j * Ui o j) + fourW * bui o
/-- The node's new memory. -/
def cellC (g : Fin 20) : EReal :=
  Ideal.logistic (iou xr hr Wi bi Ui bui (u0 g)) * Ideal.tanh (iou xr hr Wi bi Ui bui (u40 g))
    + cacc xr hr cr Wf bf Uf buf g
/-- The node's new hidden row. -/
def cellH (g : Fin 20) : EReal :=
  Ideal.logistic (iou xr hr Wi bi Ui bui (u20 g)) * Ideal.tanh (cellC xr hr cr Wf bf Uf buf Wi bi Ui bui g)
end

end Cert.TreeCell

end
-- ==== Proof.BodyOps.lean ====
/-
  The kernel body's operations read at an entry of a 2000-row block, on the extended reals.

  The body works on the rows of one block: it rounds its operands for the matrix unit (the identity on the extended
  reals), transposes each weight matrix (stored one row per output unit) before multiplying, adds bias rows repeated
  down the block, takes child `k`'s slab out of a [4, 2000, 20] block, and cuts the 60 gate units into three thirds.
  Each lemma here reads one such step at row `r` and a column, over arbitrary block contents.
-/
import proofs.«101661_j42485816492070_2_alg».proof.Proof.Gen.KernelIdeal.Skeleton
import proofs.«101661_j42485816492070_2_alg».proof.Proof.LibDenseRow
import proofs.«101661_j42485816492070_2_alg».proof.Proof.LibBlockLayout
import proofs.«101661_j42485816492070_2_alg».proof.Proof.Cell
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.TreeCell

/-! ## Layout steps -/

/-- Child `k`'s slab of a [4, 2000, 20] block, as a matrix, at (r, j) is the block at (k, r, j). -/
theorem slab_at (o : Nat) (k : Fin 4) (ho : o = k.val) (P : Vec Ideal S4x2000x20 .f32)
    (h : S4x2000x20.Slices ![o, 0, 0] S1x2000x20) (r : Fin 2000) (j : Fin 20) :
    shapeCast S2000x20 (extractStridedSlice S1x2000x20 ![o, 0, 0] P h) shapeCasts_S1x2000x20_S2000x20 (ix2 r j)
      = P (ix3 k r j) := by
  refine (Cert.LibBlockLayout.dropUnit_at _ shapeCasts_S1x2000x20_S2000x20 r j).trans ?_
  refine extractStridedSlice_apply ![o, 0, 0] P h (ix3 (0 : Fin 1) r j) (ix3 k r j) (fun a => ?_)
  match a with
  | ⟨0, _⟩ => show k.val = o + 0; omega
  | ⟨1, _⟩ => show r.val = 0 + r.val; omega
  | ⟨2, _⟩ => show j.val = 0 + j.val; omega

/-- A [1, 20] bias row, through its identity cast, repeated down the block: at (r, g) the row at (0, g). -/
theorem biasRow20_at (B : Vec Ideal S1x20 .f32) (r : Fin 2000) (g : Fin 20) :
    broadcastTo S2000x20 (shapeCast S1x20 B shapeCasts_S1x20_S1x20) broadcasts_S1x20_S2000x20 (ix2 r g)
      = B (ix2 (0 : Fin 1) g) :=
  (Cert.LibBlockLayout.rowBroadcast_at _ broadcasts_S1x20_S2000x20 r g).trans
    (congrFun (shapeCast_self B shapeCasts_S1x20_S1x20) _)

/-- A [1, 20] row repeated down the block: at (r, g) the row at (0, g). -/
theorem row20_at (B : FVec Ideal S1x20 .f32) (r : Fin 2000) (g : Fin 20) :
    broadcastTo S2000x20 B broadcasts_S1x20_S2000x20 (ix2 r g) = B (ix2 (0 : Fin 1) g) :=
  Cert.LibBlockLayout.rowBroadcast_at B broadcasts_S1x20_S2000x20 r g

/-- A [1, 60] row repeated down the block: at (r, o) the row at (0, o). -/
theorem row60_at (B : FVec Ideal S1x60 .f32) (r : Fin 2000) (o : Fin 60) :
    broadcastTo S2000x60 B broadcasts_S1x60_S2000x60 (ix2 r o) = B (ix2 (0 : Fin 1) o) :=
  Cert.LibBlockLayout.rowBroadcast_at B broadcasts_S1x60_S2000x60 r o

/-! ## The four products with a transposed weight, into the zero accumulator -/

theorem mm_10_20 (A : FVec Ideal S2000x10 .bf16) (W : FVec Ideal S20x10 .bf16) (r : Fin 2000) (g : Fin 20) :
    matmul dot_S2000x10_S10x20_S2000x20_1_0_0_1_n_n none A (transpose S10x20 [1, 0] W transposes_S20x10_p1_0_S10x20)
        (constant S2000x20 .f32 0x00000000#32) (ix2 r g) = ∑ a : Fin 10, A (ix2 r a) * W (ix2 g a) :=
  Cert.LibDenseRow.matmulT_at (R := 2000) (K := 10) (N := 20) none A W transposes_S20x10_p1_0_S10x20 r g

theorem mm_20_20 (A : FVec Ideal S2000x20 .bf16) (W : FVec Ideal S20x20 .bf16) (r : Fin 2000) (g : Fin 20) :
    matmul dot_S2000x20_S20x20_S2000x20_1_0_0_1_n_n none A (transpose S20x20 [1, 0] W transposes_S20x20_p1_0_S20x20)
        (constant S2000x20 .f32 0x00000000#32) (ix2 r g) = ∑ j : Fin 20, A (ix2 r j) * W (ix2 g j) :=
  Cert.LibDenseRow.matmulT_at (R := 2000) (K := 20) (N := 20) none A W transposes_S20x20_p1_0_S20x20 r g

theorem mm_10_60 (A : FVec Ideal S2000x10 .bf16) (W : FVec Ideal S60x10 .bf16) (r : Fin 2000) (o : Fin 60) :
    matmul dot_S2000x10_S10x60_S2000x60_1_0_0_1_n_n none A (transpose S10x60 [1, 0] W transposes_S60x10_p1_0_S10x60)
        (constant S2000x60 .f32 0x00000000#32) (ix2 r o) = ∑ a : Fin 10, A (ix2 r a) * W (ix2 o a) :=
  Cert.LibDenseRow.matmulT_at (R := 2000) (K := 10) (N := 60) none A W transposes_S60x10_p1_0_S10x60 r o

theorem mm_20_60 (A : FVec Ideal S2000x20 .bf16) (W : FVec Ideal S60x20 .bf16) (r : Fin 2000) (o : Fin 60) :
    matmul dot_S2000x20_S20x60_S2000x60_1_0_0_1_n_n none A (transpose S20x60 [1, 0] W transposes_S60x20_p1_0_S20x60)
        (constant S2000x60 .f32 0x00000000#32) (ix2 r o) = ∑ j : Fin 20, A (ix2 r j) * W (ix2 o j) :=
  Cert.LibDenseRow.matmulT_at (R := 2000) (K := 20) (N := 60) none A W transposes_S60x20_p1_0_S20x60 r o

/-- The product with an already transposed [20, 20] weight: a plain product. -/
theorem mm_20_20_plain (A : FVec Ideal S2000x20 .bf16) (Wt : FVec Ideal S20x20 .bf16) (r : Fin 2000) (g : Fin 20) :
    matmul dot_S2000x20_S20x20_S2000x20_1_0_0_1_n_n none A Wt (constant S2000x20 .f32 0x00000000#32) (ix2 r g)
      = ∑ j : Fin 20, A (ix2 r j) * Wt (ix2 j g) :=
  Cert.LibPlainMatmul.matmul_zero_apply (a := 2000) (n := 20) (b := 20) none A Wt r g

end Cert.KernelIdeal.Body

end
-- ==== Proof.BodyCell.lean ====
/-
  The kernel body's values at an entry of a block, and the tree cell they are.

  Each named value of the body (one pure function of the blocks the body loaded) is read at row `r` of the block and a
  column. The memory sum through the forget gates and the summed hidden rows are built by four additions one after the
  other from the word 0.0, which is that word plus the sum over the four children; everything else is the cell's own
  grouping. So at row `r` the two blocks the body stores are the cell of row `r`'s data: its new hidden row and its
  new memory.
-/
import proofs.«101661_j42485816492070_2_alg».proof.Proof.BodyOps

noncomputable section

open scoped BigOperators

namespace Cert.KernelIdeal.Body

open Cert.KernelIdeal Cert.KernelIdeal.Gen Idealize.ShloMosaic Idealize.ShloMosaic.ValueIdx Cert.TreeCell Cert.LibSigmoid

/-! ## The three thirds of the 60 gate units -/

theorem third0_at (V : FVec Ideal S2000x60 .f32) (r : Fin 2000) (g : Fin 20) :
    extractStridedSlice S2000x20 ![0, 0] V slices_S2000x60_o0_0_S2000x20 (ix2 r g) = V (ix2 r (u0 g)) :=
  extractStridedSlice_apply ![0, 0] V slices_S2000x60_o0_0_S2000x20 (ix2 r g) (ix2 r (u0 g)) (fun a => by
    match a with
    | ⟨0, _⟩ => show r.val = 0 + r.val; omega
    | ⟨1, _⟩ => show g.val = 0 + g.val; omega)

theorem third20_at (V : FVec Ideal S2000x60 .f32) (r : Fin 2000) (g : Fin 20) :
    extractStridedSlice S2000x20 ![0, 20] V slices_S2000x60_o0_20_S2000x20 (ix2 r g) = V (ix2 r (u20 g)) :=
  extractStridedSlice_apply ![0, 20] V slices_S2000x60_o0_20_S2000x20 (ix2 r g) (ix2 r (u20 g)) (fun a => by
    match a with
    | ⟨0, _⟩ => show r.val = 0 + r.val; omega
    | ⟨1, _⟩ => show g.val + 20 = 20 + g.val; omega)

theorem third40_at (V : FVec Ideal S2000x60 .f32) (r : Fin 2000) (g : Fin 20) :
    extractStridedSlice S2000x20 ![0, 40] V slices_S2000x60_o0_40_S2000x20 (ix2 r g) = V (ix2 r (u40 g)) :=
  extractStridedSlice_apply ![0, 40] V slices_S2000x60_o0_40_S2000x20 (ix2 r g) (ix2 r (u40 g)) (fun a => by
    match a with
    | ⟨0, _⟩ => show r.val = 0 + r.val; omega
    | ⟨1, _⟩ => show g.val + 40 = 40 + g.val; omega)

/-! ## The payloads over arbitrary operands -/

/-- x · Wfᵀ + bf at (r, g). -/
theorem pay11_at (X : Vec Ideal S2000x10 .f32) (W : Vec Ideal S20x10 .f32) (B : Vec Ideal S1x20 .f32)
    (r : Fin 2000) (g : Fin 20) :
    k0_pay11 X W B (ix2 r g) = (∑ a : Fin 10, X (ix2 r a) * W (ix2 g a)) + B (ix2 (0 : Fin 1) g) := by
  unfold k0_pay11 k0_pay4
  simp only [addf_apply]
  rw [mm_10_20, biasRow20_at]
  rfl

/-- x · Wiouᵀ + biou at (r, o). -/
theorem pay23_at (A : FVec Ideal S2000x10 .bf16) (W : FVec Ideal S60x10 .bf16) (B : FVec Ideal S1x60 .f32)
    (r : Fin 2000) (o : Fin 60) :
    k0_pay23 A W B (ix2 r o) = (∑ a : Fin 10, A (ix2 r a) * W (ix2 o a)) + B (ix2 (0 : Fin 1) o) := by
  unfold k0_pay23
  simp only [addf_apply, row60_at]
  rw [mm_10_60]

/-- The 60 gate units at (r, o): what came before, plus hsum · Uiouᵀ, plus four times the bias row. -/
theorem pay1_at (U : FVec Ideal S60x20 .bf16) (B : FVec Ideal S1x60 .f32) (HS : FVec Ideal S2000x20 .bf16)
    (V : FVec Ideal S2000x60 .f32) (r : Fin 2000) (o : Fin 60) :
    k0_pay1 U B HS V (ix2 r o)
      = (V (ix2 r o) + ∑ j : Fin 20, HS (ix2 r j) * U (ix2 o j)) + fourW * B (ix2 (0 : Fin 1) o) := by
  unfold k0_pay1
  simp only [addf_apply, mulf_apply, broadcast_apply, row60_at]
  rw [mm_20_60]
  rfl

/-- The summed hidden rows at (r, j): four additions from the start value. -/
theorem pay22_at (P : Vec Ideal S4x2000x20 .f32) (Z H0 : FVec Ideal S2000x20 .f32) (r : Fin 2000) (j : Fin 20) :
    k0_pay22 P Z H0 (ix2 r j)
      = (((Z (ix2 r j) + H0 (ix2 r j)) + P (ix3 (1 : Fin 4) r j)) + P (ix3 (2 : Fin 4) r j)) + P (ix3 (3 : Fin 4) r j) := by
  unfold k0_pay22 k0_pay18 k0_pay19 k0_pay20
  simp only [addf_apply, truncf_apply, slab_at 1 1 rfl, slab_at 2 2 rfl, slab_at 3 3 rfl]

/-- One child's term of the memory sum: its forget gate times its memory. -/
def gateTerm (fxv hUv bv cv : EReal) : EReal := Ideal.logistic (fxv + (hUv + bv)) * cv

/-- The memory sum at (r, g): four gate terms added to the start value one after the other. Child 0's hidden slab
    and memory slab arrive already cut out (`H0`, `C0`), with the weight already transposed (`Ut`); children 1–3 are
    cut out of the blocks here. -/
theorem pay21_at (P Q : Vec Ideal S4x2000x20 .f32) (U : FVec Ideal S20x20 .bf16) (B : FVec Ideal S1x20 .f32)
    (FX Z C0 : FVec Ideal S2000x20 .f32) (H0 : FVec Ideal S2000x20 .bf16) (Ut : FVec Ideal S20x20 .bf16)
    (r : Fin 2000) (g : Fin 20) :
    k0_pay21 P Q U B FX Z C0 H0 Ut (ix2 r g)
      = (((Z (ix2 r g)
          + gateTerm (FX (ix2 r g)) (∑ j : Fin 20, H0 (ix2 r j) * Ut (ix2 j g)) (B (ix2 (0 : Fin 1) g)) (C0 (ix2 r g)))
          + gateTerm (FX (ix2 r g)) (∑ j : Fin 20, P (ix3 (1 : Fin 4) r j) * U (ix2 g j)) (B (ix2 (0 : Fin 1) g)) (Q (ix3 (1 : Fin 4) r g)))
          + gateTerm (FX (ix2 r g)) (∑ j : Fin 20, P (ix3 (2 : Fin 4) r j) * U (ix2 g j)) (B (ix2 (0 : Fin 1) g)) (Q (ix3 (2 : Fin 4) r g)))
          + gateTerm (FX (ix2 r g)) (∑ j : Fin 20, P (ix3 (3 : Fin 4) r j) * U (ix2 g j)) (B (ix2 (0 : Fin 1) g)) (Q (ix3 (3 : Fin 4) r g)) := by
  unfold k0_pay21 k0_pay18 k0_pay19 k0_pay20 gateTerm
  simp only [addf_apply, mulf_apply, logistic_at, row20_at, slab_at 1 1 rfl, slab_at 2 2 rfl, slab_at 3 3 rfl]
  rw [mm_20_20_plain H0 Ut r g, mm_20_20, mm_20_20, mm_20_20]
  simp only [truncf_apply, slab_at 1 1 rfl, slab_at 2 2 rfl, slab_at 3 3 rfl]

/-- The new memory at (r, g), from the gate units and the memory sum. -/
theorem pay2_at (U : FVec Ideal S60x20 .bf16) (B : FVec Ideal S1x60 .f32) (CA : FVec Ideal S2000x20 .f32)
    (HS : FVec Ideal S2000x20 .bf16) (V : FVec Ideal S2000x60 .f32) (r : Fin 2000) (g : Fin 20) :
    k0_pay2 U B CA HS V (ix2 r g)
      = Ideal.logistic (k0_pay1 U B HS V (ix2 r (u0 g))) * Ideal.tanh (k0_pay1 U B HS V (ix2 r (u40 g))) + CA (ix2 r g) := by
  unfold k0_pay2
  simp only [addf_apply, mulf_apply, logistic_at, tanh_at, third0_at, third40_at]

/-- The new hidden row at (r, g), from the gate units and the new memory. -/
theorem pay3_at (U : FVec Ideal S60x20 .bf16) (B : FVec Ideal S1x60 .f32) (CA : FVec Ideal S2000x20 .f32)
    (HS : FVec Ideal S2000x20 .bf16) (V : FVec Ideal S2000x60 .f32) (r : Fin 2000) (g : Fin 20) :
    k0_pay3 U B CA HS V (ix2 r g)
      = Ideal.logistic (k0_pay1 U B HS V (ix2 r (u20 g))) * Ideal.tanh (k0_pay2 U B CA HS V (ix2 r g)) := by
  unfold k0_pay3
  simp only [mulf_apply, logistic_at, tanh_at, third20_at]

/-! ## The operands the body prepares once -/

theorem pay4_at (X : Vec Ideal S2000x10 .f32) (i : S2000x10.Idx) : k0_pay4 X i = X i := rfl
theorem pay5_at (X : Vec Ideal S20x20 .f32) (i : S20x20.Idx) : k0_pay5 X i = X i := rfl
theorem pay6_at (X : Vec Ideal S60x10 .f32) (i : S60x10.Idx) : k0_pay6 X i = X i := rfl
theorem pay7_at (X : Vec Ideal S60x20 .f32) (i : S60x20.Idx) : k0_pay7 X i = X i := rfl
theorem pay8_at (X : Vec Ideal S1x20 .f32) (i : S1x20.Idx) : k0_pay8 X i = X i :=
  congrFun (shapeCast_self X shapeCasts_S1x20_S1x20) i
theorem pay9_at (X : Vec Ideal S1x60 .f32) (i : S1x60.Idx) : k0_pay9 X i = X i :=
  congrFun (shapeCast_self X shapeCasts_S1x60_S1x60) i
theorem pay10_at (X : Vec Ideal S1x60 .f32) (i : S1x60.Idx) : k0_pay10 X i = X i :=
  congrFun (shapeCast_self X shapeCasts_S1x60_S1x60) i
theorem pay12_at (i : S2000x20.Idx) : k0_pay12 (F := Ideal) i = zeroW := rfl
theorem pay13_at (i : S2000x20.Idx) : k0_pay13 (F := Ideal) i = zeroW := rfl
theorem pay14_at (P : Vec Ideal S4x2000x20 .f32) (r : Fin 2000) (j : Fin 20) :
    k0_pay14 P (ix2 r j) = P (ix3 (0 : Fin 4) r j) := by
  unfold k0_pay14; exact slab_at 0 0 rfl P _ r j
theorem pay15_at (P : Vec Ideal S4x2000x20 .f32) (r : Fin 2000) (j : Fin 20) :
    k0_pay15 P (ix2 r j) = P (ix3 (0 : Fin 4) r j) := by
  unfold k0_pay15; exact slab_at 0 0 rfl P _ r j
theorem pay16_at (P : Vec Ideal S4x2000x20 .f32) (r : Fin 2000) (j : Fin 20) :
    k0_pay16 P (ix2 r j) = P (ix3 (0 : Fin 4) r j) := by
  unfold k0_pay16; exact pay14_at P r j
theorem pay17_at (W : Vec Ideal S20x20 .f32) (j g : Fin 20) : k0_pay17 W (ix2 j g) = W (ix2 g j) := by
  unfold k0_pay17 k0_pay5
  exact Cert.LibDenseRow.transpose_at (N := 20) (K := 20) _ transposes_S20x20_p1_0_S20x20 j g

/-! ## The body's values are the cell of the row -/

variable (x0 : Vec Ideal S2000x10 .f32) (x1 x2 : Vec Ideal S4x2000x20 .f32) (x3 : Vec Ideal S20x10 .f32)
    (x4 : Vec Ideal S1x20 .f32) (x5 : Vec Ideal S20x20 .f32) (x6 : Vec Ideal S1x20 .f32) (x7 : Vec Ideal S60x10 .f32)
    (x8 : Vec Ideal S1x60 .f32) (x9 : Vec Ideal S60x20 .f32) (x10 : Vec Ideal S1x60 .f32)

/-- The summed hidden rows of row `r`. -/
theorem hsumK_at (r : Fin 2000) (j : Fin 20) :
    k0_pay22 x1 (k0_pay13 (F := Ideal)) (k0_pay14 x1) (ix2 r j) = hsum (fun k j => x1 (ix3 k r j)) j := by
  rw [pay22_at, pay13_at, pay14_at]
  exact chain4 zeroW (fun k => x1 (ix3 k r j))

/-- The gate units of row `r`. -/
theorem iouK_at (r : Fin 2000) (o : Fin 60) :
    k0_pay1 (k0_pay7 x9) (k0_pay10 x10) (k0_pay22 x1 (k0_pay13 (F := Ideal)) (k0_pay14 x1)) (k0_pay23 (k0_pay4 x0) (k0_pay6 x7) (k0_pay9 x8)) (ix2 r o)
      = iou (fun a => x0 (ix2 r a)) (fun k j => x1 (ix3 k r j)) (fun o a => x7 (ix2 o a)) (fun o => x8 (ix2 (0 : Fin 1) o))
          (fun o j => x9 (ix2 o j)) (fun o => x10 (ix2 (0 : Fin 1) o)) o := by
  rw [pay1_at, pay23_at]
  unfold iou
  simp only [hsumK_at, pay4_at, pay6_at, pay7_at, pay9_at, pay10_at]

/-- The memory sum of row `r`. -/
theorem caccK_at (r : Fin 2000) (g : Fin 20) :
    k0_pay21 x1 x2 (k0_pay5 x5) (k0_pay8 x6) (k0_pay11 x0 x3 x4) (k0_pay12 (F := Ideal)) (k0_pay15 x2) (k0_pay16 x1) (k0_pay17 x5) (ix2 r g)
      = cacc (fun a => x0 (ix2 r a)) (fun k j => x1 (ix3 k r j)) (fun k j => x2 (ix3 k r j))
          (fun g a => x3 (ix2 g a)) (fun g => x4 (ix2 (0 : Fin 1) g)) (fun g j => x5 (ix2 g j)) (fun g => x6 (ix2 (0 : Fin 1) g)) g := by
  rw [pay21_at]
  simp only [pay11_at, pay12_at, pay15_at, pay16_at, pay17_at, pay5_at, pay8_at]
  exact chain4 zeroW (fun k => fgate (fun a => x0 (ix2 r a)) (fun k j => x1 (ix3 k r j)) (fun g a => x3 (ix2 g a))
    (fun g => x4 (ix2 (0 : Fin 1) g)) (fun g j => x5 (ix2 g j)) (fun g => x6 (ix2 (0 : Fin 1) g)) k g * x2 (ix3 k r g))

/-- THE NEW MEMORY the body stores, at row `r`, unit `g`: the cell of row `r`. -/
theorem bodyC_at (r : Fin 2000) (g : Fin 20) :
    k0_pay2 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) (ix2 r g)
      = cellC (fun a => x0 (ix2 r a)) (fun k j => x1 (ix3 k r j)) (fun k j => x2 (ix3 k r j))
          (fun g a => x3 (ix2 g a)) (fun g => x4 (ix2 (0 : Fin 1) g)) (fun g j => x5 (ix2 g j)) (fun g => x6 (ix2 (0 : Fin 1) g))
          (fun o a => x7 (ix2 o a)) (fun o => x8 (ix2 (0 : Fin 1) o)) (fun o j => x9 (ix2 o j)) (fun o => x10 (ix2 (0 : Fin 1) o)) g := by
  rw [pay2_at, iouK_at, iouK_at, caccK_at]
  rfl

/-- THE NEW HIDDEN ROW the body stores, at row `r`, unit `g`: the cell of row `r`. -/
theorem bodyH_at (r : Fin 2000) (g : Fin 20) :
    k0_pay3 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) (ix2 r g)
      = cellH (fun a => x0 (ix2 r a)) (fun k j => x1 (ix3 k r j)) (fun k j => x2 (ix3 k r j))
          (fun g a => x3 (ix2 g a)) (fun g => x4 (ix2 (0 : Fin 1) g)) (fun g j => x5 (ix2 g j)) (fun g => x6 (ix2 (0 : Fin 1) g))
          (fun o a => x7 (ix2 o a)) (fun o => x8 (ix2 (0 : Fin 1) o)) (fun o j => x9 (ix2 o j)) (fun o => x10 (ix2 (0 : Fin 1) o)) g := by
  rw [pay3_at, bodyC_at, iouK_at]
  rfl

end Cert.KernelIdeal.Body

end
-- ==== Proof.CellArray.lean ====
/-
  The tree cell over the whole batch: the two result arrays as functions of the eleven argument arrays.

  Entry (n, g) of a result is the cell of node `n`'s data at unit `g`: row `n` of the inputs, rows (k, n) of the four
  children's hidden and memory arrays, and the weight matrices and bias vectors, which are the same for every node.
-/
import proofs.«101661_j42485816492070_2_alg».proof.Proof.Cell
import Idealize.ShloMosaic.Lib.ValueIdx

noncomputable section

namespace Cert.TreeCell

open Idealize.ShloMosaic Idealize.ShloMosaic.ValueIdx

/-- The node an entry of a [1000000, 20] result belongs to. -/
def nodeOf (i : (⟨2, ![1000000, 20]⟩ : Shape).Idx) : Fin 1000000 := ⟨(i 0).val, (i 0).isLt⟩
/-- The unit of an entry of a [1000000, 20] result. -/
def unitOf (i : (⟨2, ![1000000, 20]⟩ : Shape).Idx) : Fin 20 := ⟨(i 1).val, (i 1).isLt⟩

section
variable (X : Fin 1000000 → Fin 10 → EReal) (H C : Fin 4 → Fin 1000000 → Fin 20 → EReal)
  (Wf : Fin 20 → Fin 10 → EReal) (bf : Fin 20 → EReal) (Uf : Fin 20 → Fin 20 → EReal) (buf : Fin 20 → EReal)
  (Wi : Fin 60 → Fin 10 → EReal) (bi : Fin 60 → EReal) (Ui : Fin 60 → Fin 20 → EReal) (bui : Fin 60 → EReal)

/-- The new memories of all nodes. -/
def Cout : (⟨2, ![1000000, 20]⟩ : Shape).Idx → EReal := fun i =>
  cellC (X (nodeOf i)) (fun k => H k (nodeOf i)) (fun k => C k (nodeOf i)) Wf bf Uf buf Wi bi Ui bui (unitOf i)
/-- The new hidden rows of all nodes. -/
def Hout : (⟨2, ![1000000, 20]⟩ : Shape).Idx → EReal := fun i =>
  cellH (X (nodeOf i)) (fun k => H k (nodeOf i)) (fun k => C k (nodeOf i)) Wf bf Uf buf Wi bi Ui bui (unitOf i)
end

section
variable (a0 : (⟨2, ![1000000, 10]⟩ : Shape).Idx → EReal) (a1 a2 : (⟨3, ![4, 1000000, 20]⟩ : Shape).Idx → EReal)
  (a3 : (⟨2, ![60, 10]⟩ : Shape).Idx → EReal) (a4 : (⟨1, ![60]⟩ : Shape).Idx → EReal)
  (a5 : (⟨2, ![60, 20]⟩ : Shape).Idx → EReal) (a6 : (⟨1, ![60]⟩ : Shape).Idx → EReal)
  (a7 : (⟨2, ![20, 10]⟩ : Shape).Idx → EReal) (a8 : (⟨1, ![20]⟩ : Shape).Idx → EReal)
  (a9 : (⟨2, ![20, 20]⟩ : Shape).Idx → EReal) (a10 : (⟨1, ![20]⟩ : Shape).Idx → EReal)

/-- The new memories, from the argument arrays in the order the programs take them: inputs, children's hidden rows,
    children's memories, then (weight, bias) of the gate layers on the input and on the hidden rows, then of the
    forget layers on the input and on the hidden rows. -/
def CoutOf : (⟨2, ![1000000, 20]⟩ : Shape).Idx → EReal :=
  Cout (fun n a => a0 (ix2 n a)) (fun k n j => a1 (ix3 k n j)) (fun k n j => a2 (ix3 k n j))
    (fun g a => a7 (ix2 g a)) (fun g => a8 (ix1 g)) (fun g j => a9 (ix2 g j)) (fun g => a10 (ix1 g))
    (fun o a => a3 (ix2 o a)) (fun o => a4 (ix1 o)) (fun o j => a5 (ix2 o j)) (fun o => a6 (ix1 o))
/-- The new hidden rows, from the argument arrays. -/
def HoutOf : (⟨2, ![1000000, 20]⟩ : Shape).Idx → EReal :=
  Hout (fun n a => a0 (ix2 n a)) (fun k n j => a1 (ix3 k n j)) (fun k n j => a2 (ix3 k n j))
    (fun g a => a7 (ix2 g a)) (fun g => a8 (ix1 g)) (fun g j => a9 (ix2 g j)) (fun g => a10 (ix1 g))
    (fun o a => a3 (ix2 o a)) (fun o => a4 (ix1 o)) (fun o j => a5 (ix2 o j)) (fun o => a6 (ix1 o))
end

/-- Two cells of equal data are equal (the data given as functions, compared one by one). -/
theorem cellC_congr {xr xr' : Fin 10 → EReal} {hr hr' cr cr' : Fin 4 → Fin 20 → EReal}
    {Wf Wf' : Fin 20 → Fin 10 → EReal} {bf bf' : Fin 20 → EReal} {Uf Uf' : Fin 20 → Fin 20 → EReal} {buf buf' : Fin 20 → EReal}
    {Wi Wi' : Fin 60 → Fin 10 → EReal} {bi bi' : Fin 60 → EReal} {Ui Ui' : Fin 60 → Fin 20 → EReal} {bui bui' : Fin 60 → EReal}
    {g g' : Fin 20}
    (h0 : xr = xr') (h1 : hr = hr') (h2 : cr = cr') (h3 : Wf = Wf') (h4 : bf = bf') (h5 : Uf = Uf') (h6 : buf = buf')
    (h7 : Wi = Wi') (h8 : bi = bi') (h9 : Ui = Ui') (h10 : bui = bui') (hg : g = g') :
    cellC xr hr cr Wf bf Uf buf Wi bi Ui bui g = cellC xr' hr' cr' Wf' bf' Uf' buf' Wi' bi' Ui' bui' g' := by
  subst h0 h1 h2 h3 h4 h5 h6 h7 h8 h9 h10 hg; rfl

theorem cellH_congr {xr xr' : Fin 10 → EReal} {hr hr' cr cr' : Fin 4 → Fin 20 → EReal}
    {Wf Wf' : Fin 20 → Fin 10 → EReal} {bf bf' : Fin 20 → EReal} {Uf Uf' : Fin 20 → Fin 20 → EReal} {buf buf' : Fin 20 → EReal}
    {Wi Wi' : Fin 60 → Fin 10 → EReal} {bi bi' : Fin 60 → EReal} {Ui Ui' : Fin 60 → Fin 20 → EReal} {bui bui' : Fin 60 → EReal}
    {g g' : Fin 20}
    (h0 : xr = xr') (h1 : hr = hr') (h2 : cr = cr') (h3 : Wf = Wf') (h4 : bf = bf') (h5 : Uf = Uf') (h6 : buf = buf')
    (h7 : Wi = Wi') (h8 : bi = bi') (h9 : Ui = Ui') (h10 : bui = bui') (hg : g = g') :
    cellH xr hr cr Wf bf Uf buf Wi bi Ui bui g = cellH xr' hr' cr' Wf' bf' Uf' buf' Wi' bi' Ui' bui' g' := by
  subst h0 h1 h2 h3 h4 h5 h6 h7 h8 h9 h10 hg; rfl

end Cert.TreeCell

end
-- ==== Proof.Blocks.lean ====
/-
  From blocks to the arrays: the kernel's two results are the tree cell over the whole batch.

  The pipeline cuts the million nodes into 500 blocks of 2000 rows. At point `t` the three row windows (inputs,
  children's hidden rows, children's memories) hold rows 2000·t … 2000·t + 1999 of their arrays, the eight weight and
  bias windows hold their whole arrays at every point (the bias vectors having been reshaped to one-row matrices
  before the region), and the two output windows write back rows 2000·t … of the results. The body's stored blocks are
  the cell of each row (the module on the body), so point `t` writes back block `t` of the whole-batch functions; the
  blocks tile the results (row n lies in block n / 2000), so after the run the results ARE those functions.
-/
import proofs.«101661_j42485816492070_2_alg».proof.Proof.Gen.KernelIdeal.Value
import proofs.«101661_j42485816492070_2_alg».proof.Proof.BodyCell
import proofs.«101661_j42485816492070_2_alg».proof.Proof.CellArray

noncomputable section

open scoped BigOperators

namespace Cert.KernelIdeal.Blocks

open Cert.KernelIdeal Cert.KernelIdeal.Gen Cert.KernelIdeal.Body Idealize.ShloMosaic Idealize.ShloMosaic.TcCoe
open Idealize.SL.Sem Idealize.ShloMosaic.ValueIdx Cert.TreeCell Idealize.ShloMosaic.Tactic
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in the two output buffers, over arbitrary blocks -/

section
variable (x0 : Vec Ideal S2000x10 .f32) (x1 x2 : Vec Ideal S4x2000x20 .f32) (x3 : Vec Ideal S20x10 .f32)
    (x4 : Vec Ideal S1x20 .f32) (x5 : Vec Ideal S20x20 .f32) (x6 : Vec Ideal S1x20 .f32) (x7 : Vec Ideal S60x10 .f32)
    (x8 : Vec Ideal S1x60 .f32) (x9 : Vec Ideal S60x20 .f32) (x10 : Vec Ideal S1x60 .f32)

/-- The memory buffer after the body: its one whole-buffer store's value, of the blocks loaded whole. -/
theorem out12_eq : out0_12 x0 x1 x2 x3 x4 x5 x6 x7 x8 x9 x10 = k0_pay2 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) := by
  unfold out0_12
  rw [View.canon_unit_zero hz2]
  simp only [View.ld_unit_zero (S := S2000x10) hz2, View.ld_unit_zero (S := S4x2000x20) hz3,
    View.ld_unit_zero (S := S20x10) hz2, View.ld_unit_zero (S := S20x20) hz2, View.ld_unit_zero (S := S60x10) hz2,
    View.ld_unit_zero (S := S60x20) hz2, View.ld_unit_zero (S := S1x20) hz2, View.ld_unit_zero (S := S1x60) hz2]

/-- The hidden buffer after the body. -/
theorem out11_eq : out0_11 x0 x1 x2 x3 x4 x5 x6 x7 x8 x9 x10 = k0_pay3 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) := by
  unfold out0_11
  rw [View.canon_unit_zero hz2]
  simp only [View.ld_unit_zero (S := S2000x10) hz2, View.ld_unit_zero (S := S4x2000x20) hz3,
    View.ld_unit_zero (S := S20x10) hz2, View.ld_unit_zero (S := S20x20) hz2, View.ld_unit_zero (S := S60x10) hz2,
    View.ld_unit_zero (S := S60x20) hz2, View.ld_unit_zero (S := S1x20) hz2, View.ld_unit_zero (S := S1x60) hz2]

/-- The stored memory at any entry of the block is the cell of the entry's row. -/
theorem bodyC_idx (y : S2000x20.Idx) :
    k0_pay2 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) y
      = cellC (fun a => x0 (ix2 (⟨(y 0).val, (y 0).isLt⟩ : Fin 2000) a)) (fun k j => x1 (ix3 k (⟨(y 0).val, (y 0).isLt⟩ : Fin 2000) j))
          (fun k j => x2 (ix3 k (⟨(y 0).val, (y 0).isLt⟩ : Fin 2000) j))
          (fun g a => x3 (ix2 g a)) (fun g => x4 (ix2 (0 : Fin 1) g)) (fun g j => x5 (ix2 g j)) (fun g => x6 (ix2 (0 : Fin 1) g))
          (fun o a => x7 (ix2 o a)) (fun o => x8 (ix2 (0 : Fin 1) o)) (fun o j => x9 (ix2 o j)) (fun o => x10 (ix2 (0 : Fin 1) o))
          (⟨(y 1).val, (y 1).isLt⟩ : Fin 20) := by
  obtain ⟨r, g, rfl⟩ : ∃ (r : Fin 2000) (g : Fin 20), y = ix2 r g := ⟨y 0, y 1, eq_ix2 y⟩
  exact bodyC_at x0 x1 x2 x3 x4 x5 x6 x7 x8 x9 x10 r g

/-- The stored hidden value at any entry of the block is the cell of the entry's row. -/
theorem bodyH_idx (y : S2000x20.Idx) :
    k0_pay3 (k0_pay7 x9) (k0_pay10 x10) (k0_pay21 x1 x2 (k0_pay5 x5) (k0_pay8 x6) (k0_pay11 x0 x3 x4) (k0_pay12 (F := Ideal)) (k0_pay15 x2) (k0_pay16 x1) (k0_pay17 x5)) (k0_pay22 x1 (k0_pay13 (F := Ideal)) (k0_pay14 x1)) (k0_pay23 (k0_pay4 x0) (k0_pay6 x7) (k0_pay9 x8)) y
      = cellH (fun a => x0 (ix2 (⟨(y 0).val, (y 0).isLt⟩ : Fin 2000) a)) (fun k j => x1 (ix3 k (⟨(y 0).val, (y 0).isLt⟩ : Fin 2000) j))
          (fun k j => x2 (ix3 k (⟨(y 0).val, (y 0).isLt⟩ : Fin 2000) j))
          (fun g a => x3 (ix2 g a)) (fun g => x4 (ix2 (0 : Fin 1) g)) (fun g j => x5 (ix2 g j)) (fun g => x6 (ix2 (0 : Fin 1) g))
          (fun o a => x7 (ix2 o a)) (fun o => x8 (ix2 (0 : Fin 1) o)) (fun o j => x9 (ix2 o j)) (fun o => x10 (ix2 (0 : Fin 1) o))
          (⟨(y 1).val, (y 1).isLt⟩ : Fin 20) := by
  obtain ⟨r, g, rfl⟩ : ∃ (r : Fin 2000) (g : Fin 20), y = ix2 r g := ⟨y 0, y 1, eq_ix2 y⟩
  exact bodyH_at x0 x1 x2 x3 x4 x5 x6 x7 x8 x9 x10 r g
end

/-! ## The printed index maps, decided over the 500 points -/

/-- The three row windows and the two output windows move together along the rows; nothing moves along columns. -/
theorem idx_in : ∀ t : Fin cfg0.N,
    win0_0.index t (0 : Fin 2) = win0_12.index t (0 : Fin 2) ∧ win0_0.index t (1 : Fin 2) = 0
  ∧ win0_1.index t (0 : Fin 3) = 0 ∧ win0_1.index t (1 : Fin 3) = win0_12.index t (0 : Fin 2) ∧ win0_1.index t (2 : Fin 3) = 0
  ∧ win0_2.index t (0 : Fin 3) = 0 ∧ win0_2.index t (1 : Fin 3) = win0_12.index t (0 : Fin 2) ∧ win0_2.index t (2 : Fin 3) = 0
  ∧ win0_11.index t (0 : Fin 2) = win0_12.index t (0 : Fin 2) ∧ win0_11.index t (1 : Fin 2) = 0
  ∧ win0_12.index t (1 : Fin 2) = 0 :=
  (by decide +kernel : ∀ t : Fin grid0.N, _)

theorem idx_w3 : ∀ t : Fin cfg0.N, win0_3.index t (0 : Fin 2) = 0 ∧ win0_3.index t (1 : Fin 2) = 0 :=
  (by decide +kernel : ∀ t : Fin grid0.N, _)

theorem idx_w4 : ∀ t : Fin cfg0.N, win0_4.index t (0 : Fin 2) = 0 ∧ win0_4.index t (1 : Fin 2) = 0 :=
  (by decide +kernel : ∀ t : Fin grid0.N, _)

theorem idx_w5 : ∀ t : Fin cfg0.N, win0_5.index t (0 : Fin 2) = 0 ∧ win0_5.index t (1 : Fin 2) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)

theorem idx_w7 : ∀ t : Fin cfg0.N, win0_7.index t (0 : Fin 2) = 0 ∧ win0_7.index t (1 : Fin 2) = 0 :=
  (by decide +kernel : ∀ t : Fin grid0.N, _)

theorem idx_w8 : ∀ t : Fin cfg0.N, win0_8.index t (0 : Fin 2) = 0 ∧ win0_8.index t (1 : Fin 2) = 0 :=
  (by decide +kernel : ∀ t : Fin grid0.N, _)

theorem idx_w9 : ∀ t : Fin cfg0.N, win0_9.index t (0 : Fin 2) = 0 ∧ win0_9.index t (1 : Fin 2) = 0 :=
  (by decide +kernel : ∀ t : Fin grid0.N, _)

theorem idx_w10 : ∀ t : Fin cfg0.N, win0_10.index t (0 : Fin 2) = 0 ∧ win0_10.index t (1 : Fin 2) = 0 :=
  (by decide +kernel : ∀ t : Fin grid0.N, _)

/-! ## The windows' blocks, read off the argument arrays -/

variable (m : (ℓ : Loc nD τ sig) → Buf (Elt Ideal) ℓ) (ρ : Dev nD → PrngReg)

/-- Row `r` of the input window's block at point `t` is row `n` of the inputs, `n` the row the output block puts `r` at. -/
theorem read0 (c : Dev nD) (t : Fin cfg0.N) (r : Fin 2000) (a : Fin 10) (n : Fin 1000000)
    (hn : n.val = win0_12.index t (0 : Fin 2) * 2000 + r.val) :
    iblk m c 0 t (ix2 r a) = m ((c : Thread nD τ).loc main_arg0) (ix2 n a) := by
  show V m c main_arg0 (((cfg0.win 0).blk t).view.emb (ix2 r a)) = _
  rw [V_main_arg0]
  refine congrArg (m ((c : Thread nD τ).loc main_arg0)) (funext fun d => Fin.ext ?_)
  obtain ⟨f0, f1, -⟩ := idx_in t
  match d with
  | ⟨0, _⟩ => show win0_0.index t (0 : Fin 2) * 2000 + 1 * r.val = n.val; omega
  | ⟨1, _⟩ => show win0_0.index t (1 : Fin 2) * 10 + 1 * a.val = a.val; omega

/-- Row (k, r) of the children's hidden window at point `t` is row (k, n) of that array. -/
theorem read1 (c : Dev nD) (t : Fin cfg0.N) (k : Fin 4) (r : Fin 2000) (j : Fin 20) (n : Fin 1000000)
    (hn : n.val = win0_12.index t (0 : Fin 2) * 2000 + r.val) :
    iblk m c 1 t (ix3 k r j) = m ((c : Thread nD τ).loc main_arg1) (ix3 k n j) := by
  show V m c main_arg1 (((cfg0.win 1).blk t).view.emb (ix3 k r j)) = _
  rw [V_main_arg1]
  refine congrArg (m ((c : Thread nD τ).loc main_arg1)) (funext fun d => Fin.ext ?_)
  obtain ⟨-, -, f2, f3, f4, -⟩ := idx_in t
  match d with
  | ⟨0, _⟩ => show win0_1.index t (0 : Fin 3) * 4 + 1 * k.val = k.val; omega
  | ⟨1, _⟩ => show win0_1.index t (1 : Fin 3) * 2000 + 1 * r.val = n.val; omega
  | ⟨2, _⟩ => show win0_1.index t (2 : Fin 3) * 20 + 1 * j.val = j.val; omega

/-- Row (k, r) of the children's memory window at point `t` is row (k, n) of that array. -/
theorem read2 (c : Dev nD) (t : Fin cfg0.N) (k : Fin 4) (r : Fin 2000) (j : Fin 20) (n : Fin 1000000)
    (hn : n.val = win0_12.index t (0 : Fin 2) * 2000 + r.val) :
    iblk m c 2 t (ix3 k r j) = m ((c : Thread nD τ).loc main_arg2) (ix3 k n j) := by
  show V m c main_arg2 (((cfg0.win 2).blk t).view.emb (ix3 k r j)) = _
  rw [V_main_arg2]
  refine congrArg (m ((c : Thread nD τ).loc main_arg2)) (funext fun d => Fin.ext ?_)
  obtain ⟨-, -, -, -, -, f5, f6, f7, -⟩ := idx_in t
  match d with
  | ⟨0, _⟩ => show win0_2.index t (0 : Fin 3) * 4 + 1 * k.val = k.val; omega
  | ⟨1, _⟩ => show win0_2.index t (1 : Fin 3) * 2000 + 1 * r.val = n.val; omega
  | ⟨2, _⟩ => show win0_2.index t (2 : Fin 3) * 20 + 1 * j.val = j.val; omega

/-- Window 3 stages the whole [20, 10] array at every point. -/
theorem read3 (c : Dev nD) (t : Fin cfg0.N) (g : Fin 20) (a : Fin 10) :
    iblk m c 3 t (ix2 g a) = m ((c : Thread nD τ).loc main_arg7) (ix2 g a) := by
  show V m c main_arg7 (((cfg0.win 3).blk t).view.emb (ix2 g a)) = _
  rw [V_main_arg7]
  refine congrArg (m ((c : Thread nD τ).loc main_arg7)) (funext fun d => Fin.ext ?_)
  obtain ⟨e0, e1⟩ := idx_w3 t
  match d with
  | ⟨0, _⟩ => show win0_3.index t (0 : Fin 2) * 20 + 1 * g.val = g.val; omega
  | ⟨1, _⟩ => show win0_3.index t (1 : Fin 2) * 10 + 1 * a.val = a.val; omega

/-- The region finds the [20] bias vector number 8 as a [1, 20] row (a reshape before the region). -/
theorem V_v0 (c : Dev nD) : (V m c main_v0 : S1x20.Idx → EReal)
    = shapeCast S1x20 (m ((c : Thread nD τ).loc main_arg8)) shapeCasts_S20_S1x20 := by
  dsimp only [Gen.V, Gen.hostOps0]
  after_results
  rfl

/-- Window 4 stages that whole row at every point: at (0, g) it is the vector at g. -/
theorem read4 (c : Dev nD) (t : Fin cfg0.N) (g : Fin 20) :
    iblk m c 4 t (ix2 (0 : Fin 1) g) = m ((c : Thread nD τ).loc main_arg8) (ix1 g) := by
  show V m c main_v0 (((cfg0.win 4).blk t).view.emb (ix2 (0 : Fin 1) g)) = _
  rw [V_v0]
  obtain ⟨e0, e1⟩ := idx_w4 t
  refine shapeCast_apply _ shapeCasts_S20_S1x20 _ (ix1 g) ?_
  rw [Shape.rowMajor_val_one, Shape.rowMajor_val_two]
  show g.val = (win0_4.index t (0 : Fin 2) * 1 + 1 * 0) * 20 + (win0_4.index t (1 : Fin 2) * 20 + 1 * g.val)
  omega

/-- Window 5 stages the whole [20, 20] array at every point. -/
theorem read5 (c : Dev nD) (t : Fin cfg0.N) (g : Fin 20) (j : Fin 20) :
    iblk m c 5 t (ix2 g j) = m ((c : Thread nD τ).loc main_arg9) (ix2 g j) := by
  show V m c main_arg9 (((cfg0.win 5).blk t).view.emb (ix2 g j)) = _
  rw [V_main_arg9]
  refine congrArg (m ((c : Thread nD τ).loc main_arg9)) (funext fun d => Fin.ext ?_)
  obtain ⟨e0, e1⟩ := idx_w5 t
  match d with
  | ⟨0, _⟩ => show win0_5.index t (0 : Fin 2) * 20 + 1 * g.val = g.val; omega
  | ⟨1, _⟩ => show win0_5.index t (1 : Fin 2) * 20 + 1 * j.val = j.val; omega

/-- The region finds the [20] bias vector number 10 as a [1, 20] row (a reshape before the region). -/
theorem V_v1 (c : Dev nD) : (V m c main_v1 : S1x20.Idx → EReal)
    = shapeCast S1x20 (m ((c : Thread nD τ).loc main_arg10)) shapeCasts_S20_S1x20 := by
  dsimp only [Gen.V, Gen.hostOps0]
  after_results
  rfl

/-- Window 6 stages that whole row at every point: at (0, g) it is the vector at g. -/
theorem read6 (c : Dev nD) (t : Fin cfg0.N) (g : Fin 20) :
    iblk m c 6 t (ix2 (0 : Fin 1) g) = m ((c : Thread nD τ).loc main_arg10) (ix1 g) := by
  show V m c main_v1 (((cfg0.win 6).blk t).view.emb (ix2 (0 : Fin 1) g)) = _
  rw [V_v1]
  obtain ⟨e0, e1⟩ := idx_w6 t
  refine shapeCast_apply _ shapeCasts_S20_S1x20 _ (ix1 g) ?_
  rw [Shape.rowMajor_val_one, Shape.rowMajor_val_two]
  show g.val = (win0_6.index t (0 : Fin 2) * 1 + 1 * 0) * 20 + (win0_6.index t (1 : Fin 2) * 20 + 1 * g.val)
  omega

/-- Window 7 stages the whole [60, 10] array at every point. -/
theorem read7 (c : Dev nD) (t : Fin cfg0.N) (o : Fin 60) (a : Fin 10) :
    iblk m c 7 t (ix2 o a) = m ((c : Thread nD τ).loc main_arg3) (ix2 o a) := by
  show V m c main_arg3 (((cfg0.win 7).blk t).view.emb (ix2 o a)) = _
  rw [V_main_arg3]
  refine congrArg (m ((c : Thread nD τ).loc main_arg3)) (funext fun d => Fin.ext ?_)
  obtain ⟨e0, e1⟩ := idx_w7 t
  match d with
  | ⟨0, _⟩ => show win0_7.index t (0 : Fin 2) * 60 + 1 * o.val = o.val; omega
  | ⟨1, _⟩ => show win0_7.index t (1 : Fin 2) * 10 + 1 * a.val = a.val; omega

/-- The region finds the [60] bias vector number 4 as a [1, 60] row (a reshape before the region). -/
theorem V_v2 (c : Dev nD) : (V m c main_v2 : S1x60.Idx → EReal)
    = shapeCast S1x60 (m ((c : Thread nD τ).loc main_arg4)) shapeCasts_S60_S1x60 := by
  dsimp only [Gen.V, Gen.hostOps0]
  after_results
  rfl

/-- Window 8 stages that whole row at every point: at (0, g) it is the vector at g. -/
theorem read8 (c : Dev nD) (t : Fin cfg0.N) (g : Fin 60) :
    iblk m c 8 t (ix2 (0 : Fin 1) g) = m ((c : Thread nD τ).loc main_arg4) (ix1 g) := by
  show V m c main_v2 (((cfg0.win 8).blk t).view.emb (ix2 (0 : Fin 1) g)) = _
  rw [V_v2]
  obtain ⟨e0, e1⟩ := idx_w8 t
  refine shapeCast_apply _ shapeCasts_S60_S1x60 _ (ix1 g) ?_
  rw [Shape.rowMajor_val_one, Shape.rowMajor_val_two]
  show g.val = (win0_8.index t (0 : Fin 2) * 1 + 1 * 0) * 60 + (win0_8.index t (1 : Fin 2) * 60 + 1 * g.val)
  omega

/-- Window 9 stages the whole [60, 20] array at every point. -/
theorem read9 (c : Dev nD) (t : Fin cfg0.N) (o : Fin 60) (j : Fin 20) :
    iblk m c 9 t (ix2 o j) = m ((c : Thread nD τ).loc main_arg5) (ix2 o j) := by
  show V m c main_arg5 (((cfg0.win 9).blk t).view.emb (ix2 o j)) = _
  rw [V_main_arg5]
  refine congrArg (m ((c : Thread nD τ).loc main_arg5)) (funext fun d => Fin.ext ?_)
  obtain ⟨e0, e1⟩ := idx_w9 t
  match d with
  | ⟨0, _⟩ => show win0_9.index t (0 : Fin 2) * 60 + 1 * o.val = o.val; omega
  | ⟨1, _⟩ => show win0_9.index t (1 : Fin 2) * 20 + 1 * j.val = j.val; omega

/-- The region finds the [60] bias vector number 6 as a [1, 60] row (a reshape before the region). -/
theorem V_v3 (c : Dev nD) : (V m c main_v3 : S1x60.Idx → EReal)
    = shapeCast S1x60 (m ((c : Thread nD τ).loc main_arg6)) shapeCasts_S60_S1x60 := by
  dsimp only [Gen.V, Gen.hostOps0]
  after_results
  rfl

/-- Window 10 stages that whole row at every point: at (0, g) it is the vector at g. -/
theorem read10 (c : Dev nD) (t : Fin cfg0.N) (g : Fin 60) :
    iblk m c 10 t (ix2 (0 : Fin 1) g) = m ((c : Thread nD τ).loc main_arg6) (ix1 g) := by
  show V m c main_v3 (((cfg0.win 10).blk t).view.emb (ix2 (0 : Fin 1) g)) = _
  rw [V_v3]
  obtain ⟨e0, e1⟩ := idx_w10 t
  refine shapeCast_apply _ shapeCasts_S60_S1x60 _ (ix1 g) ?_
  rw [Shape.rowMajor_val_one, Shape.rowMajor_val_two]
  show g.val = (win0_10.index t (0 : Fin 2) * 1 + 1 * 0) * 60 + (win0_10.index t (1 : Fin 2) * 60 + 1 * g.val)
  omega

/-! ## What each point writes back, the cover, and the arrays after the run -/

/-- WHAT POINT `t` WRITES BACK to the memory result is block `t` of the whole-batch function of the argument arrays. -/
theorem flushed12_eq (c : Dev nD) (t : Fin cfg0.N) :
    (dats m 0 c).flushed 12 t = ((cfg0.win 12).blk t).view.read (Elt Ideal) (CoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed12]
  funext y
  have hy0 : (y 0).val < 2000 := (y 0).isLt
  have hy1 : (y 1).val < 20 := (y 1).isLt
  obtain ⟨f0, f1, f2, f3, f4, f5, f6, f7, f8, f9, f10⟩ := idx_in t
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = CoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb y)
  refine (congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) y).trans ?_
  refine (bodyC_idx (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  have hn : (nodeOf (((cfg0.win 12).blk t).view.emb y)).val = win0_12.index t (0 : Fin 2) * 2000 + (y 0).val := by
    show win0_12.index t (0 : Fin 2) * 2000 + 1 * (y 0).val = _
    omega
  have hu : (⟨(y 1).val, hy1⟩ : Fin 20) = unitOf (((cfg0.win 12).blk t).view.emb y) :=
    Fin.ext (by show (y 1).val = win0_12.index t (1 : Fin 2) * 20 + 1 * (y 1).val; omega)
  exact cellC_congr
    (funext fun a => read0 m c t ⟨(y 0).val, hy0⟩ a _ hn)
    (funext fun k => funext fun j => read1 m c t k ⟨(y 0).val, hy0⟩ j _ hn)
    (funext fun k => funext fun j => read2 m c t k ⟨(y 0).val, hy0⟩ j _ hn)
    (funext fun g => funext fun a => read3 m c t g a)
    (funext fun g => read4 m c t g)
    (funext fun g => funext fun j => read5 m c t g j)
    (funext fun g => read6 m c t g)
    (funext fun o => funext fun a => read7 m c t o a)
    (funext fun o => read8 m c t o)
    (funext fun o => funext fun j => read9 m c t o j)
    (funext fun o => read10 m c t o)
    hu

/-- WHAT POINT `t` WRITES BACK to the hidden result is block `t` of the whole-batch function of the argument arrays. -/
theorem flushed11_eq (c : Dev nD) (t : Fin cfg0.N) :
    (dats m 0 c).flushed 11 t = ((cfg0.win 11).blk t).view.read (Elt Ideal) (HoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Cert.KernelIdeal.Value.flushed11]
  funext y
  have hy0 : (y 0).val < 2000 := (y 0).isLt
  have hy1 : (y 1).val < 20 := (y 1).isLt
  obtain ⟨f0, f1, f2, f3, f4, f5, f6, f7, f8, f9, f10⟩ := idx_in t
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = HoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y)
  refine (congrFun (out11_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) y).trans ?_
  refine (bodyH_idx (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  have hn : (nodeOf (((cfg0.win 11).blk t).view.emb y)).val = win0_12.index t (0 : Fin 2) * 2000 + (y 0).val := by
    show win0_11.index t (0 : Fin 2) * 2000 + 1 * (y 0).val = _
    omega
  have hu : (⟨(y 1).val, hy1⟩ : Fin 20) = unitOf (((cfg0.win 11).blk t).view.emb y) :=
    Fin.ext (by show (y 1).val = win0_11.index t (1 : Fin 2) * 20 + 1 * (y 1).val; omega)
  exact cellH_congr
    (funext fun a => read0 m c t ⟨(y 0).val, hy0⟩ a _ hn)
    (funext fun k => funext fun j => read1 m c t k ⟨(y 0).val, hy0⟩ j _ hn)
    (funext fun k => funext fun j => read2 m c t k ⟨(y 0).val, hy0⟩ j _ hn)
    (funext fun g => funext fun a => read3 m c t g a)
    (funext fun g => read4 m c t g)
    (funext fun g => funext fun j => read5 m c t g j)
    (funext fun g => read6 m c t g)
    (funext fun o => funext fun a => read7 m c t o a)
    (funext fun o => read8 m c t o)
    (funext fun o => funext fun j => read9 m c t o j)
    (funext fun o => read10 m c t o)
    hu

/-- An entry is in point `t`'s block of the memory result iff each coordinate is in the block's range. -/
theorem mem_blk12 (t : Fin cfg0.N) (i : S1000000x20.Idx) :
    i ∈ ((cfg0.win 12).blk t).view.set ↔ ∀ a : Fin 2, win0_12.index t a * S2000x20.size a ≤ (i a).val
      ∧ (i a).val < win0_12.index t a * S2000x20.size a + S2000x20.size a := by
  show i ∈ ((View.whole main_v4_1).slice (win0_12.rect t)).set ↔ _
  rw [View.set_slice_whole, Rect.mem_set_unit]
  exact Iff.rfl

/-- Every entry is in the block of the point its row falls in: row n belongs to point n / 2000. -/
theorem cover12 (i : S1000000x20.Idx) :
    ∃ t : Fin cfg0.N, (cfg0.win 12).flush t = true ∧ i ∈ ((cfg0.win 12).blk t).view.set := by
  have hi0 : (i 0).val < 1000000 := (i 0).isLt
  have hi1 : (i 1).val < 20 := (i 1).isLt
  have hN : grid0.N = 500 := N_0
  have hlt : (i 0).val / 2000 < grid0.N := by rw [hN]; omega
  obtain ⟨f0, f1, f2, f3, f4, f5, f6, f7, f8, f9, f10⟩ := idx_in ⟨(i 0).val / 2000, hlt⟩
  have q0 : win0_12.index ⟨(i 0).val / 2000, hlt⟩ (0 : Fin 2) = (i 0).val / 2000 :=
    Cert.KernelIdeal.Value.idx_pt12 ⟨(i 0).val / 2000, hlt⟩
  refine ⟨⟨(i 0).val / 2000, hlt⟩, flush0_12 _, ?_⟩
  rw [mem_blk12]
  intro a
  match a with
  | ⟨0, _⟩ =>
    show win0_12.index ⟨(i 0).val / 2000, hlt⟩ (0 : Fin 2) * 2000 ≤ (i 0).val
      ∧ (i 0).val < win0_12.index ⟨(i 0).val / 2000, hlt⟩ (0 : Fin 2) * 2000 + 2000
    omega
  | ⟨1, _⟩ =>
    show win0_12.index ⟨(i 0).val / 2000, hlt⟩ (1 : Fin 2) * 20 ≤ (i 1).val
      ∧ (i 1).val < win0_12.index ⟨(i 0).val / 2000, hlt⟩ (1 : Fin 2) * 20 + 20
    omega

/-- THE MEMORY RESULT after the run: the whole-batch function of the argument arrays. -/
theorem final12 (c : Dev nD) : (dats m 0 c).arrAt 12 cfg0.N = CoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 _ (fun t _ => flushed12_eq m c t) cover12

/-- An entry is in point `t`'s block of the hidden result iff each coordinate is in the block's range. -/
theorem mem_blk11 (t : Fin cfg0.N) (i : S1000000x20.Idx) :
    i ∈ ((cfg0.win 11).blk t).view.set ↔ ∀ a : Fin 2, win0_11.index t a * S2000x20.size a ≤ (i a).val
      ∧ (i a).val < win0_11.index t a * S2000x20.size a + S2000x20.size a := by
  show i ∈ ((View.whole main_v4_0).slice (win0_11.rect t)).set ↔ _
  rw [View.set_slice_whole, Rect.mem_set_unit]
  exact Iff.rfl

/-- Every entry is in the block of the point its row falls in: row n belongs to point n / 2000. -/
theorem cover11 (i : S1000000x20.Idx) :
    ∃ t : Fin cfg0.N, (cfg0.win 11).flush t = true ∧ i ∈ ((cfg0.win 11).blk t).view.set := by
  have hi0 : (i 0).val < 1000000 := (i 0).isLt
  have hi1 : (i 1).val < 20 := (i 1).isLt
  have hN : grid0.N = 500 := N_0
  have hlt : (i 0).val / 2000 < grid0.N := by rw [hN]; omega
  obtain ⟨f0, f1, f2, f3, f4, f5, f6, f7, f8, f9, f10⟩ := idx_in ⟨(i 0).val / 2000, hlt⟩
  have q0 : win0_12.index ⟨(i 0).val / 2000, hlt⟩ (0 : Fin 2) = (i 0).val / 2000 :=
    Cert.KernelIdeal.Value.idx_pt12 ⟨(i 0).val / 2000, hlt⟩
  refine ⟨⟨(i 0).val / 2000, hlt⟩, flush0_11 _, ?_⟩
  rw [mem_blk11]
  intro a
  match a with
  | ⟨0, _⟩ =>
    show win0_11.index ⟨(i 0).val / 2000, hlt⟩ (0 : Fin 2) * 2000 ≤ (i 0).val
      ∧ (i 0).val < win0_11.index ⟨(i 0).val / 2000, hlt⟩ (0 : Fin 2) * 2000 + 2000
    omega
  | ⟨1, _⟩ =>
    show win0_11.index ⟨(i 0).val / 2000, hlt⟩ (1 : Fin 2) * 20 ≤ (i 1).val
      ∧ (i 1).val < win0_11.index ⟨(i 0).val / 2000, hlt⟩ (1 : Fin 2) * 20 + 20
    omega

/-- THE HIDDEN RESULT after the run: the whole-batch function of the argument arrays. -/
theorem final11 (c : Dev nD) : (dats m 0 c).arrAt 11 cfg0.N = HoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed11_eq m c t) cover11

/-- The kernel's run with both results named: the new hidden rows and the new memories of the whole batch as
    functions of the argument arrays, the arguments unchanged. -/
theorem run : θ_run defs (onTc (τ := τ) (main (F := Ideal))) ⟨m, fun _ => 0, ρ⟩ fun r => ∀ c : Dev nD,
      r.2.mem ((c : Thread nD τ).loc main_v4_0) = HoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v4_1) = CoutOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Cert.KernelIdeal.Value.run_blocks m ρ)

end Cert.KernelIdeal.Blocks

end
-- ==== Proof.RefCell.lean ====
/-
  The reference program's stages are the tree cell, node by node.

  Read at node `n` (a row of the million) and a unit, each stage of the host program is the corresponding part of the
  cell of that node's data: the einsum products are sums over the contracted axis, the bias vectors reach an entry
  through two broadcasts, the sums over the four children are the host's reductions from the word 0.0, the sigmoid is
  spelt 1 / (1 + e⁻ˣ) with the word 1.0, and the three gates are slices of the 60 units at offsets 0, 20 and 40.
-/
import proofs.«101661_j42485816492070_2_alg».proof.Proof.Gen.ReferenceIdeal.Read
import proofs.«101661_j42485816492070_2_alg».proof.Proof.CellArray
import Idealize.ShloMosaic.Lib.ValueIdx
import Idealize.ShloMosaic.PureOps.Ideal.Laws

noncomputable section

open scoped BigOperators

namespace Cert.ReferenceIdeal.RefCell

open Cert.ReferenceIdeal Cert.ReferenceIdeal.Read Idealize.ShloMosaic Idealize.ShloMosaic.ValueIdx Cert.TreeCell Cert.LibSigmoid

variable (x0 : (⟨S1000000x10, .f32⟩ : BufTy).Contents (Elt Ideal)) (x1 x2 : (⟨S4x1000000x20, .f32⟩ : BufTy).Contents (Elt Ideal))
  (x3 : (⟨S60x10, .f32⟩ : BufTy).Contents (Elt Ideal)) (x4 : (⟨S60, .f32⟩ : BufTy).Contents (Elt Ideal)) (x5 : (⟨S60x20, .f32⟩ : BufTy).Contents (Elt Ideal)) (x6 : (⟨S60, .f32⟩ : BufTy).Contents (Elt Ideal))
  (x7 : (⟨S20x10, .f32⟩ : BufTy).Contents (Elt Ideal)) (x8 : (⟨S20, .f32⟩ : BufTy).Contents (Elt Ideal)) (x9 : (⟨S20x20, .f32⟩ : BufTy).Contents (Elt Ideal)) (x10 : (⟨S20, .f32⟩ : BufTy).Contents (Elt Ideal))

/-- The input's share of the forget gates at node `n`, unit `g`. -/
theorem fx_at (n : Fin 1000000) (g : Fin 20) :
    val_main_v3 (F := Ideal) x0 x7 x8 (ix2 n g)
      = fx (fun a => x0 (ix2 n a)) (fun g a => x7 (ix2 g a)) (fun g => x8 (ix1 g)) g := by
  rw [val_main_v3_apply, val_main_v0_apply, val_main_v2_apply, val_main_v1_apply]
  have e1 : ∀ k, lidx_main_v0 (ix2 n g) k = ix2 n k := fun k => funext fun a => by
    match a with | ⟨0, _⟩ => rfl | ⟨1, _⟩ => rfl
  have e2 : ∀ k, ridx_main_v0 (ix2 n g) k = ix2 g k := fun k => funext fun a => by
    match a with | ⟨0, _⟩ => rfl | ⟨1, _⟩ => rfl
  have e3 : idx_main_v1 (idx_main_v2 (ix2 n g)) = ix1 g := funext fun a => by
    match a with | ⟨0, _⟩ => rfl
  rw [e3]
  unfold fx
  exact congrArg (· + x8 (ix1 g)) (Finset.sum_congr rfl fun k _ => by rw [e1 k, e2 k])

/-- Child `k`'s share of its forget gate at node `n`, unit `g`. -/
theorem fh_at (k : Fin 4) (n : Fin 1000000) (g : Fin 20) :
    val_main_v7 (F := Ideal) x1 x9 x10 (ix3 k n g)
      = fh (fun k j => x1 (ix3 k n j)) (fun g j => x9 (ix2 g j)) (fun g => x10 (ix1 g)) k g := by
  rw [val_main_v7_apply, val_main_v4_apply, val_main_v6_apply, val_main_v5_apply]
  have e1 : ∀ j, lidx_main_v4 (ix3 k n g) j = ix3 k n j := fun j => funext fun a => by
    match a with | ⟨0, _⟩ => rfl | ⟨1, _⟩ => rfl | ⟨2, _⟩ => rfl
  have e2 : ∀ j, ridx_main_v4 (ix3 k n g) j = ix2 g j := fun j => funext fun a => by
    match a with | ⟨0, _⟩ => rfl | ⟨1, _⟩ => rfl
  have e3 : idx_main_v5 (idx_main_v6 (ix3 k n g)) = ix1 g := funext fun a => by
    match a with | ⟨0, _⟩ => rfl
  rw [e3]
  unfold fh
  exact congrArg (· + x10 (ix1 g)) (Finset.sum_congr rfl fun j _ => by rw [e1 j, e2 j])

/-- Child `k`'s forget gate at node `n`, unit `g`. -/
theorem fgate_at (k : Fin 4) (n : Fin 1000000) (g : Fin 20) :
    val_main_v16 (F := Ideal) x0 x1 x7 x8 x9 x10 (ix3 k n g)
      = fgate (fun a => x0 (ix2 n a)) (fun k j => x1 (ix3 k n j)) (fun g a => x7 (ix2 g a)) (fun g => x8 (ix1 g))
          (fun g j => x9 (ix2 g j)) (fun g => x10 (ix1 g)) k g := by
  rw [val_main_v16_apply, val_main_v15_apply, val_main_cst_0_apply, val_main_v14_apply, val_main_v13_apply,
    val_main_cst_apply, val_main_v12_apply, val_main_v11_apply, val_main_v10_apply, val_main_v9_apply,
    val_main_v8_apply]
  have e : idx_main_v8 (idx_main_v9 (ix3 k n g)) = ix2 n g := funext fun a => by
    match a with | ⟨0, _⟩ => rfl | ⟨1, _⟩ => rfl
  rw [e, fx_at, fh_at]
  exact logistic_spelt _

/-- The children's memories through their forget gates, summed, at node `n`, unit `g`. -/
theorem cacc_at (n : Fin 1000000) (g : Fin 20) :
    val_main_v18 (F := Ideal) x0 x1 x2 x7 x8 x9 x10 (ix2 n g)
      = cacc (fun a => x0 (ix2 n a)) (fun k j => x1 (ix3 k n j)) (fun k j => x2 (ix3 k n j))
          (fun g a => x7 (ix2 g a)) (fun g => x8 (ix1 g)) (fun g j => x9 (ix2 g j)) (fun g => x10 (ix1 g)) g := by
  rw [val_main_v18_apply, val_main_cst_1_apply]
  have e : ∀ k, idx_main_v18 (ix2 n g) k = ix3 k n g := fun k => funext fun a => by
    match a with | ⟨0, _⟩ => rfl | ⟨1, _⟩ => rfl | ⟨2, _⟩ => rfl
  unfold cacc
  exact congrArg (zeroW + ·) (Finset.sum_congr rfl fun k _ => by rw [e k, val_main_v17_apply, fgate_at]; rfl)

/-- The children's hidden rows, summed, at node `n`, entry `j`. -/
theorem hsum_at (n : Fin 1000000) (j : Fin 20) :
    val_main_v19 (F := Ideal) x1 (ix2 n j) = hsum (fun k j => x1 (ix3 k n j)) j := by
  rw [val_main_v19_apply, val_main_cst_2_apply]
  have e : ∀ k, idx_main_v19 (ix2 n j) k = ix3 k n j := fun k => funext fun a => by
    match a with | ⟨0, _⟩ => rfl | ⟨1, _⟩ => rfl | ⟨2, _⟩ => rfl
  unfold hsum
  exact congrArg (zeroW + ·) (Finset.sum_congr rfl fun k _ => by rw [e k])

/-- The gates' pre-activations at node `n`, unit `o` of the 60. -/
theorem iou_at (n : Fin 1000000) (o : Fin 60) :
    val_main_v30 (F := Ideal) x0 x1 x3 x4 x5 x6 (ix2 n o)
      = iou (fun a => x0 (ix2 n a)) (fun k j => x1 (ix3 k n j)) (fun o a => x3 (ix2 o a)) (fun o => x4 (ix1 o))
          (fun o j => x5 (ix2 o j)) (fun o => x6 (ix1 o)) o := by
  rw [val_main_v30_apply, val_main_v25_apply, val_main_v23_apply, val_main_v20_apply, val_main_v22_apply,
    val_main_v21_apply, val_main_v24_apply, val_main_v29_apply, val_main_v28_apply, val_main_v27_apply,
    val_main_v26_apply, val_main_cst_3_apply]
  have e1 : ∀ a, lidx_main_v20 (ix2 n o) a = ix2 n a := fun a => funext fun d => by
    match d with | ⟨0, _⟩ => rfl | ⟨1, _⟩ => rfl
  have e2 : ∀ a, ridx_main_v20 (ix2 n o) a = ix2 o a := fun a => funext fun d => by
    match d with | ⟨0, _⟩ => rfl | ⟨1, _⟩ => rfl
  have e3 : idx_main_v21 (idx_main_v22 (ix2 n o)) = ix1 o := funext fun d => by
    match d with | ⟨0, _⟩ => rfl
  have e4 : ∀ j, lidx_main_v24 (ix2 n o) j = ix2 n j := fun j => funext fun d => by
    match d with | ⟨0, _⟩ => rfl | ⟨1, _⟩ => rfl
  have e5 : ∀ j, ridx_main_v24 (ix2 n o) j = ix2 o j := fun j => funext fun d => by
    match d with | ⟨0, _⟩ => rfl | ⟨1, _⟩ => rfl
  have e6 : idx_main_v28 (idx_main_v29 (ix2 n o)) = ix1 o := funext fun d => by
    match d with | ⟨0, _⟩ => rfl
  rw [e3, e6]
  unfold iou
  have s1 : (∑ a : Fin 10, x0 (lidx_main_v20 (ix2 n o) a) * x3 (ridx_main_v20 (ix2 n o) a))
      = ∑ a : Fin 10, x0 (ix2 n a) * x3 (ix2 o a) := Finset.sum_congr rfl fun a _ => by rw [e1 a, e2 a]
  have s2 : (∑ j : Fin 20, val_main_v19 (F := Ideal) x1 (lidx_main_v24 (ix2 n o) j) * x5 (ridx_main_v24 (ix2 n o) j))
      = ∑ j : Fin 20, hsum (fun k j => x1 (ix3 k n j)) j * x5 (ix2 o j) :=
    Finset.sum_congr rfl fun j _ => by rw [e4 j, e5 j, hsum_at]
  rw [s1, s2]
  rfl

/-- THE NEW MEMORY at node `n`, unit `g`: the reference's second result. -/
theorem cellC_at (n : Fin 1000000) (g : Fin 20) :
    val_main_v42 (F := Ideal) x0 x1 x2 x3 x4 x5 x6 x7 x8 x9 x10 (ix2 n g)
      = cellC (fun a => x0 (ix2 n a)) (fun k j => x1 (ix3 k n j)) (fun k j => x2 (ix3 k n j))
          (fun g a => x7 (ix2 g a)) (fun g => x8 (ix1 g)) (fun g j => x9 (ix2 g j)) (fun g => x10 (ix1 g))
          (fun o a => x3 (ix2 o a)) (fun o => x4 (ix1 o)) (fun o j => x5 (ix2 o j)) (fun o => x6 (ix1 o)) g := by
  rw [val_main_v42_apply, val_main_v41_apply, val_main_v39_apply, val_main_v38_apply, val_main_cst_5_apply,
    val_main_v37_apply, val_main_v36_apply, val_main_cst_4_apply, val_main_v35_apply, val_main_v34_apply,
    val_main_v31_apply, val_main_v40_apply, val_main_v33_apply, cacc_at]
  have e1 : idx_main_v31 (ix2 n g) = ix2 n (u0 g) := funext fun d => by
    match d with | ⟨0, _⟩ => rfl | ⟨1, _⟩ => rfl
  have e2 : idx_main_v33 (ix2 n g) = ix2 n (u40 g) := funext fun d => by
    match d with
    | ⟨0, _⟩ => rfl
    | ⟨1, _⟩ => exact Fin.ext (Nat.add_comm 40 g.val)
  rw [e1, e2, iou_at, iou_at]
  unfold cellC
  exact congrArg (· * _ + _) (logistic_spelt _)

/-- THE NEW HIDDEN ROW at node `n`, unit `g`: the reference's first result. -/
theorem cellH_at (n : Fin 1000000) (g : Fin 20) :
    val_main_v50 (F := Ideal) x0 x1 x2 x3 x4 x5 x6 x7 x8 x9 x10 (ix2 n g)
      = cellH (fun a => x0 (ix2 n a)) (fun k j => x1 (ix3 k n j)) (fun k j => x2 (ix3 k n j))
          (fun g a => x7 (ix2 g a)) (fun g => x8 (ix1 g)) (fun g j => x9 (ix2 g j)) (fun g => x10 (ix1 g))
          (fun o a => x3 (ix2 o a)) (fun o => x4 (ix1 o)) (fun o j => x5 (ix2 o j)) (fun o => x6 (ix1 o)) g := by
  rw [val_main_v50_apply, val_main_v48_apply, val_main_v47_apply, val_main_cst_7_apply, val_main_v46_apply,
    val_main_v45_apply, val_main_cst_6_apply, val_main_v44_apply, val_main_v43_apply, val_main_v32_apply,
    val_main_v49_apply, cellC_at]
  have e1 : idx_main_v32 (ix2 n g) = ix2 n (u20 g) := funext fun d => by
    match d with
    | ⟨0, _⟩ => rfl
    | ⟨1, _⟩ => exact Fin.ext (Nat.add_comm 20 g.val)
  rw [e1, iou_at]
  unfold cellH
  exact congrArg (· * _) (logistic_spelt _)

/-- The reference's second result IS the array of new memories. -/
theorem memory_eq : val_main_v42 (F := Ideal) x0 x1 x2 x3 x4 x5 x6 x7 x8 x9 x10 = CoutOf x0 x1 x2 x3 x4 x5 x6 x7 x8 x9 x10 := by
  funext i
  obtain ⟨n, g, rfl⟩ : ∃ (n : Fin 1000000) (g : Fin 20), i = ix2 n g := ⟨i 0, i 1, eq_ix2 i⟩
  exact cellC_at x0 x1 x2 x3 x4 x5 x6 x7 x8 x9 x10 n g

/-- The reference's first result IS the array of new hidden rows. -/
theorem hidden_eq : val_main_v50 (F := Ideal) x0 x1 x2 x3 x4 x5 x6 x7 x8 x9 x10 = HoutOf x0 x1 x2 x3 x4 x5 x6 x7 x8 x9 x10 := by
  funext i
  obtain ⟨n, g, rfl⟩ : ∃ (n : Fin 1000000) (g : Fin 20), i = ix2 n g := ⟨i 0, i 1, eq_ix2 i⟩
  exact cellH_at x0 x1 x2 x3 x4 x5 x6 x7 x8 x9 x10 n g

end Cert.ReferenceIdeal.RefCell

end
-- ==== Proof.lean ====
/-
  A child-sum tree cell over a million nodes, as a pipelined kernel against its array-program reference, equal on the
  extended reals.

  Every node has an input row and four children, each child a hidden row and a memory row. Child k's forget gate is
  σ((x·Wfᵀ + bf) + (hₖ·Ufᵀ + buf)); the new memory is σ(i)·tanh(u) + Σₖ fₖ·cₖ and the new hidden row σ(o)·tanh(new memory),
  where (i, o, u) are the three thirds of ((x·Wᵀ + b) + (Σₖ hₖ)·Uᵀ) + 4·bu. The kernel computes this 2000 nodes at a time:
  it multiplies through transposed weight matrices, repeats one-row biases down the block, and accumulates the two
  sums over the children by four additions from 0.0. The reference computes it on whole arrays with einsum products,
  broadcasts, reductions over the children's axis, and the sigmoid spelt 1 / (1 + e⁻ˣ).

  On the extended reals both are ONE function of the argument arrays, entry by entry (the whole-batch functions
  `HoutOf`, `CoutOf` of the module on the cell): the matrix products are the same sums, the logistic operation is by
  definition 1 / (1 + e⁻ˣ), the constants 0.0, 1.0, 4.0 are the same words on both sides, and four additions one after
  the other are the start value plus the sum, by associativity of addition alone. No step needs the inputs to be finite,
  so the precondition is never opened. The kernel's run is read block by block (the module on the blocks), the
  reference's stage by stage (the module on the reference), and the ideal pass rewrote nothing, so its conjunct is trivial.
-/
import proofs.«101661_j42485816492070_2_alg».proof.Defs
import proofs.«101661_j42485816492070_2_alg».proof.Proof.Gen.Kernel
import proofs.«101661_j42485816492070_2_alg».proof.Proof.Gen.Kernel.Skeleton
import proofs.«101661_j42485816492070_2_alg».proof.Proof.Gen.Kernel.Launch
import proofs.«101661_j42485816492070_2_alg».proof.Proof.Gen.Kernel.Points
import proofs.«101661_j42485816492070_2_alg».proof.Proof.Gen.Kernel.Frame
import proofs.«101661_j42485816492070_2_alg».proof.Proof.Gen.KernelIdeal
import proofs.«101661_j42485816492070_2_alg».proof.Proof.Gen.KernelIdeal.Skeleton
import proofs.«101661_j42485816492070_2_alg».proof.Proof.Gen.KernelIdeal.Launch
import proofs.«101661_j42485816492070_2_alg».proof.Proof.Gen.KernelIdeal.Points
import proofs.«101661_j42485816492070_2_alg».proof.Proof.Gen.KernelIdeal.Frame
import proofs.«101661_j42485816492070_2_alg».proof.Proof.Gen.ReferenceIdeal
import proofs.«101661_j42485816492070_2_alg».proof.Proof.Gen.Pre_finite_inputs
import proofs.«101661_j42485816492070_2_alg».proof.Proof.Gen.KernelIdeal.Value
import proofs.«101661_j42485816492070_2_alg».proof.Proof.Gen.ReferenceIdeal.Run
import proofs.«101661_j42485816492070_2_alg».proof.Proof.Gen.ReferenceIdeal.Read
import proofs.«101661_j42485816492070_2_alg».proof.Proof.Blocks
import proofs.«101661_j42485816492070_2_alg».proof.Proof.RefCell
import Idealize.ShloMosaic.Adequacy
import Idealize.ShloMosaic.Init

noncomputable section

namespace Cert.Proof

open Idealize.ShloMosaic Idealize.ShloMosaic.TcCoe Idealize.SL.Sem Cert.TreeCell

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments, the kernel's two result arrays and the reference's are the same
    whole-batch functions of the arguments: the new hidden rows and the new memories of every node. -/
theorem algebraic : Cert.algebraic_KernelIdeal_ReferenceIdeal := by
  intro m ρ m' ρ' _ hagree
  refine ⟨fun c => HoutOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => CoutOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Blocks.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v50_eq, Cert.ReferenceIdeal.RefCell.hidden_eq,
      a0, a1, a2, a3, a4, a5, a6, a7, a8, a9, a10]
  · obtain ⟨a0, a1, a2, a3, a4, a5, a6, a7, a8, a9, a10⟩ := hagree c
    rw [Cert.ReferenceIdeal.Read.val_main_v42_eq, Cert.ReferenceIdeal.RefCell.memory_eq,
      a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
